-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S1x1 : Shape := ⟨2, ![1, 1]⟩
abbrev S_ : Shape := ⟨0, ![]⟩
abbrev S1x512x3 : Shape := ⟨3, ![1, 512, 3]⟩
abbrev S1x3x4096 : Shape := ⟨3, ![1, 3, 4096]⟩
abbrev S1x4096 : Shape := ⟨2, ![1, 4096]⟩
abbrev S512x3 : Shape := ⟨2, ![512, 3]⟩
abbrev S3x4096 : Shape := ⟨2, ![3, 4096]⟩
abbrev S512 : Shape := ⟨1, ![512]⟩
abbrev S512x1 : Shape := ⟨2, ![512, 1]⟩
abbrev S4096 : Shape := ⟨1, ![4096]⟩
abbrev S512x4096 : Shape := ⟨2, ![512, 4096]⟩
abbrev S1x512x1 : Shape := ⟨3, ![1, 512, 1]⟩
abbrev S1 : Shape := ⟨1, ![1]⟩
abbrev S1x1x1 : Shape := ⟨3, ![1, 1, 1]⟩
abbrev S1x1x4096 : Shape := ⟨3, ![1, 1, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S1x1, .f32⟩
  | .hbm, ⟨4, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1, .f32⟩
  | .local _ .vmem, ⟨5, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  transposes_S4x4096x3_S4x3x4096_0_2_1 : S4x4096x3.Transposes [0, 2, 1] S4x3x4096
  shapeCasts_S1x1_S_ : S1x1.ShapeCasts S_
  inb_S1x1_S1x1_0_0 : ∀ a, (![0, 0] : Fin 2 → Nat) a + S1x1.size a ≤ S1x1.size a
  h_S1x1 : 0 < S1x1.numel
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S512x3_S512 : S512x3.Reduces [1] S512
  shapeCasts_S512_S512x1 : S512.ShapeCasts S512x1
  reduces_S3x4096_S4096 : S3x4096.Reduces [0] S4096
  shapeCasts_S4096_S1x4096 : S4096.ShapeCasts S1x4096
  slices_S512x3_o0_0_S512x1 : S512x3.Slices ![0, 0] S512x1
  slices_S3x4096_o0_0_S1x4096 : S3x4096.Slices ![0, 0] S1x4096
  broadcasts_S512x1_S512x4096 : S512x1.Broadcasts S512x4096
  broadcasts_S1x4096_S512x4096 : S1x4096.Broadcasts S512x4096
  slices_S512x3_o0_1_S512x1 : S512x3.Slices ![0, 1] S512x1
  slices_S3x4096_o1_0_S1x4096 : S3x4096.Slices ![1, 0] S1x4096
  slices_S512x3_o0_2_S512x1 : S512x3.Slices ![0, 2] S512x1
  slices_S3x4096_o2_0_S1x4096 : S3x4096.Slices ![2, 0] S1x4096
  reduces_S512x4096_S512 : S512x4096.Reduces [1] S512
  shapeCasts_S1x1_S1x1 : S1x1.ShapeCasts S1x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  reduces_S512x4096_S4096 : S512x4096.Reduces [0] S4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x4096_S1x1x4096 : S1x4096.ShapeCasts S1x1x4096
  reduces_S1x1x4096_S1 : S1x1x4096.Reduces [1, 2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x4096x3.size a
  hwx0_0 : ∀ i : grid0.Coords, EltTy.bits .f32 = 32 ∨ (Rect.block (s := S4x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096_S_d0_1 : S4x4096.ReducesTo [0, 1] S_
  reducesTo_S4x4096x4096_S4x4096_d1 : S4x4096x4096.ReducesTo [1] S4x4096

variable [Facts₀]

class Facts : Prop extends Facts₀ where

variable [Facts]
-- ==== Proof.BodyKCases.lean ====
/-
  The control of the chamfer kernel's body over its grid of 4 batches by 8 blocks of rows.

  The body branches four times on the grid coordinates (batch `i 0`, block `i 1`): it zeroes the loss
  accumulator at the very first point, it overwrites the column-minimum scratch at the first block of a batch,
  folds into it at the later blocks, and adds the scratch's sum to the loss at the last block of a batch.
  Over the 32 points, numbered `t = 8·batch + block`, the four conditions are `t = 0`, `t % 8 = 0`,
  `t % 8 ≠ 0`, `t % 8 = 7`: so every point is of one of four kinds — the first point, the first block of a
  later batch, a middle block, a last block. Also here: the staging and scratch memrefs the body is run on, and the
  region invariant with the scratch as an owned memref.
-/
import proofs.«159343_g75617194213799_fold_wed_c4_881_5_alg».proof.Proof.Gen.Kernel.Frame
import proofs.«159343_g75617194213799_fold_wed_c4_881_5_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four branch conditions, from the grid coordinates -/

/-- "The very first point": batch 0 and block 0. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "The first block of a batch". -/
abbrev cond2 (i : grid0.Coords) : Prop :=
  (Scalar.cmpi .ne (Scalar.extui (Scalar.cmpi .eq (BitVec.ofNat 32 (i 1).val) 0#32)) 0#32) = 1#1
/-- "A later block of a batch". -/
abbrev cond3 (i : grid0.Coords) : Prop :=
  (Scalar.cmpi .ne (Scalar.extui (Scalar.cmpi .sgt (BitVec.ofNat 32 (i 1).val) 0#32)) 0#32) = 1#1
/-- "The last block of a batch". -/
abbrev cond4 (i : grid0.Coords) : Prop :=
  (Scalar.cmpi .ne (Scalar.extui (Scalar.cmpi .eq (BitVec.ofNat 32 (i 1).val) 7#32)) 0#32) = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 8 = 0 :=
  (by decide +kernel : ∀ t : Fin grid0.N, cond2 (grid0.coords t) ↔ t.val % 8 = 0)
theorem hcond3 : ∀ t : Fin cfg0.N, cond3 (grid0.coords t) ↔ ¬t.val % 8 = 0 :=
  (by decide +kernel : ∀ t : Fin grid0.N, cond3 (grid0.coords t) ↔ ¬t.val % 8 = 0)
theorem hcond4 : ∀ t : Fin cfg0.N, cond4 (grid0.coords t) ↔ t.val % 8 = 7 :=
  (by decide +kernel : ∀ t : Fin grid0.N, cond4 (grid0.coords t) ↔ t.val % 8 = 7)

/-! ## The memrefs the body runs on -/

/-- One staging buffer of the loss window, through which its contents are stated. -/
abbrev VO : View sig .tc .vmem S1x1 .f32 := (Memref.whole cc0_stg2_0 : Memref sig .tc .vmem S1x1 .f32).view
/-- Each window's current staging memref at point `t`, as the pipeline passes it, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The column-minimum scratch: a whole scoped buffer of the kernel's own. -/
abbrev scM : Memref sig .tc .vmem S1x4096 .f32 := Memref.whole cc0_scratch0
abbrev VS : View sig .tc .vmem S1x4096 .f32 := scM.view

/-- The region's class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.BodyKRunA.lean ====
/-
  The kernel body run at the very first point (the loss accumulator is zeroed first, the scratch overwritten):
  from the two input blocks in their staging memrefs, the loss buffer and the scratch, the body terminates
  and leaves the inputs in place, the loss buffer with a list of written pieces and the scratch with a list of
  written pieces. The two lists are found by running the body symbolically; they are the run's witness.
-/
import proofs.«159343_g75617194213799_fold_wed_c4_881_5_alg».proof.Proof.BodyKCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the loss buffer (first component) and in the scratch (second), with the proof
    that the body, run on whole memrefs holding the input blocks `x0`, `x1`,
    reaches its continuation with exactly those pieces written. -/
noncomputable def kernelRun_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) :
    Σ' (L2 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Body

end
-- ==== Proof.BodyKRunB.lean ====
/-
  The kernel body run at the first block of a later batch (the loss accumulator is read, the scratch overwritten):
  from the two input blocks in their staging memrefs, the loss buffer and the scratch, the body terminates
  and leaves the inputs in place, the loss buffer with a list of written pieces and the scratch with a list of
  written pieces. The two lists are found by running the body symbolically; they are the run's witness.
-/
import proofs.«159343_g75617194213799_fold_wed_c4_881_5_alg».proof.Proof.BodyKRunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the loss buffer (first component) and in the scratch (second), with the proof
    that the body, run on whole memrefs holding the input blocks `x0`, `x1`, the loss so far `xo`,
    reaches its continuation with exactly those pieces written. -/
noncomputable def kernelRun_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) :
    Σ' (L2 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Body

end
-- ==== Proof.BodyKRunC.lean ====
/-
  The kernel body run at a middle block (the loss accumulator and the scratch are both read and folded into):
  from the two input blocks in their staging memrefs, the loss buffer and the scratch, the body terminates
  and leaves the inputs in place, the loss buffer with a list of written pieces and the scratch with a list of
  written pieces. The two lists are found by running the body symbolically; they are the run's witness.
-/
import proofs.«159343_g75617194213799_fold_wed_c4_881_5_alg».proof.Proof.BodyKRunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the loss buffer (first component) and in the scratch (second), with the proof
    that the body, run on whole memrefs holding the input blocks `x0`, `x1`, the loss so far `xo` and the column minima so far `xs`,
    reaches its continuation with exactly those pieces written. -/
noncomputable def kernelRun_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) :
    Σ' (L2 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Body

end
-- ==== Proof.BodyKRunD.lean ====
/-
  The kernel body run at the last block of a batch (as at a middle block, then the scratch's sum is added to the loss):
  from the two input blocks in their staging memrefs, the loss buffer and the scratch, the body terminates
  and leaves the inputs in place, the loss buffer with a list of written pieces and the scratch with a list of
  written pieces. The two lists are found by running the body symbolically; they are the run's witness.
-/
import proofs.«159343_g75617194213799_fold_wed_c4_881_5_alg».proof.Proof.BodyKRunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the loss buffer (first component) and in the scratch (second), with the proof
    that the body, run on whole memrefs holding the input blocks `x0`, `x1`, the loss so far `xo` and the column minima so far `xs`,
    reaches its continuation with exactly those pieces written. -/
noncomputable def kernelRun_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) :
    Σ' (L2 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Body

end
-- ==== Proof.BodyKFrame.lean ====
/-
  The chamfer kernel runs to its end, faults nowhere and leaves its argument arrays unchanged; and after the
  run the loss array holds what the thirty-two grid points accumulated.

  Per kind of point (the first point; the first block of a later batch; a middle block; a last block) the body's run
  leaves a list of pieces in the loss buffer and in the column-minimum scratch; each list covers its buffer, so what
  the buffer holds is the pieces read back. `outsAt` follows the two buffers point by point: each point's contents
  are its kind's pieces over the input blocks of the point and over what the point before left. The pipeline's proof
  data state this; the region invariant carries the scratch at `outsAt`'s second component between points; the body
  obligation is the kind's run at every point; the launch theorem then runs @main: the transposition before the region,
  the region, the reshaping after it.
-/
import proofs.«159343_g75617194213799_fold_wed_c4_881_5_alg».proof.Proof.BodyKRunD

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces a point of kind A leaves in the loss buffer cover it. -/
theorem cover_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) (y : S1x1.Idx) :
    ∃ pc ∈ (kernelRun_A c i arg2 harg2 arg3 harg3 arg4 harg4 arg5 harg5 hc1 hc2 hc3 hc4 x0 x1).1, y ∈ pc.1.set :=
  View.cover_of_tiledL (kernelRun_A c i arg2 harg2 arg3 harg3 arg4 harg4 arg5 harg5 hc1 hc2 hc3 hc4 x0 x1).1 S1x1.size (by sl_kernel_rfl) y

/-- What a point of kind A leaves in the loss buffer: its pieces read back. -/
def out_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) : Vec F S1x1 .f32 :=
  VO.read (Elt F) (VO.writes (Elt F) VO.junk (kernelRun_A c i arg2 harg2 arg3 harg3 arg4 harg4 arg5 harg5 hc1 hc2 hc3 hc4 x0 x1).1)

/-- The pieces a point of kind A leaves in the scratch cover it. -/
theorem scover_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) (y : S1x4096.Idx) :
    ∃ pc ∈ (kernelRun_A c i arg2 harg2 arg3 harg3 arg4 harg4 arg5 harg5 hc1 hc2 hc3 hc4 x0 x1).2.1, y ∈ pc.1.set :=
  View.cover_of_tiledL (kernelRun_A c i arg2 harg2 arg3 harg3 arg4 harg4 arg5 harg5 hc1 hc2 hc3 hc4 x0 x1).2.1 S1x4096.size (by sl_kernel_rfl) y

/-- What a point of kind A leaves in the scratch: its pieces read back. -/
def sout_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) : Vec F S1x4096 .f32 :=
  VS.read (Elt F) (VS.writes (Elt F) VS.junk (kernelRun_A c i arg2 harg2 arg3 harg3 arg4 harg4 arg5 harg5 hc1 hc2 hc3 hc4 x0 x1).2.1)

/-- The pieces a point of kind B leaves in the loss buffer cover it. -/
theorem cover_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) (y : S1x1.Idx) :
    ∃ pc ∈ (kernelRun_B c i arg2 harg2 arg3 harg3 arg4 harg4 arg5 harg5 hc1 hc2 hc3 hc4 x0 x1 xo).1, y ∈ pc.1.set :=
  View.cover_of_tiledL (kernelRun_B c i arg2 harg2 arg3 harg3 arg4 harg4 arg5 harg5 hc1 hc2 hc3 hc4 x0 x1 xo).1 S1x1.size (by sl_kernel_rfl) y

/-- What a point of kind B leaves in the loss buffer: its pieces read back. -/
def out_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) : Vec F S1x1 .f32 :=
  VO.read (Elt F) (VO.writes (Elt F) VO.junk (kernelRun_B c i arg2 harg2 arg3 harg3 arg4 harg4 arg5 harg5 hc1 hc2 hc3 hc4 x0 x1 xo).1)

/-- The pieces a point of kind B leaves in the scratch cover it. -/
theorem scover_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) (y : S1x4096.Idx) :
    ∃ pc ∈ (kernelRun_B c i arg2 harg2 arg3 harg3 arg4 harg4 arg5 harg5 hc1 hc2 hc3 hc4 x0 x1 xo).2.1, y ∈ pc.1.set :=
  View.cover_of_tiledL (kernelRun_B c i arg2 harg2 arg3 harg3 arg4 harg4 arg5 harg5 hc1 hc2 hc3 hc4 x0 x1 xo).2.1 S1x4096.size (by sl_kernel_rfl) y

/-- What a point of kind B leaves in the scratch: its pieces read back. -/
def sout_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) : Vec F S1x4096 .f32 :=
  VS.read (Elt F) (VS.writes (Elt F) VS.junk (kernelRun_B c i arg2 harg2 arg3 harg3 arg4 harg4 arg5 harg5 hc1 hc2 hc3 hc4 x0 x1 xo).2.1)

/-- The pieces a point of kind C leaves in the loss buffer cover it. -/
theorem cover_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) (y : S1x1.Idx) :
    ∃ pc ∈ (kernelRun_C c i arg2 harg2 arg3 harg3 arg4 harg4 arg5 harg5 hc1 hc2 hc3 hc4 x0 x1 xo xs).1, y ∈ pc.1.set :=
  View.cover_of_tiledL (kernelRun_C c i arg2 harg2 arg3 harg3 arg4 harg4 arg5 harg5 hc1 hc2 hc3 hc4 x0 x1 xo xs).1 S1x1.size (by sl_kernel_rfl) y

/-- What a point of kind C leaves in the loss buffer: its pieces read back. -/
def out_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (kernelRun_C c i arg2 harg2 arg3 harg3 arg4 harg4 arg5 harg5 hc1 hc2 hc3 hc4 x0 x1 xo xs).1)

/-- The pieces a point of kind C leaves in the scratch cover it. -/
theorem scover_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) (y : S1x4096.Idx) :
    ∃ pc ∈ (kernelRun_C c i arg2 harg2 arg3 harg3 arg4 harg4 arg5 harg5 hc1 hc2 hc3 hc4 x0 x1 xo xs).2.1, y ∈ pc.1.set :=
  View.cover_of_tiledL (kernelRun_C c i arg2 harg2 arg3 harg3 arg4 harg4 arg5 harg5 hc1 hc2 hc3 hc4 x0 x1 xo xs).2.1 S1x4096.size (by sl_kernel_rfl) y

/-- What a point of kind C leaves in the scratch: its pieces read back. -/
def sout_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (kernelRun_C c i arg2 harg2 arg3 harg3 arg4 harg4 arg5 harg5 hc1 hc2 hc3 hc4 x0 x1 xo xs).2.1)

/-- The pieces a point of kind D leaves in the loss buffer cover it. -/
theorem cover_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) (y : S1x1.Idx) :
    ∃ pc ∈ (kernelRun_D c i arg2 harg2 arg3 harg3 arg4 harg4 arg5 harg5 hc1 hc2 hc3 hc4 x0 x1 xo xs).1, y ∈ pc.1.set :=
  View.cover_of_tiledL (kernelRun_D c i arg2 harg2 arg3 harg3 arg4 harg4 arg5 harg5 hc1 hc2 hc3 hc4 x0 x1 xo xs).1 S1x1.size (by sl_kernel_rfl) y

/-- What a point of kind D leaves in the loss buffer: its pieces read back. -/
def out_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (kernelRun_D c i arg2 harg2 arg3 harg3 arg4 harg4 arg5 harg5 hc1 hc2 hc3 hc4 x0 x1 xo xs).1)

/-- The pieces a point of kind D leaves in the scratch cover it. -/
theorem scover_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) (y : S1x4096.Idx) :
    ∃ pc ∈ (kernelRun_D c i arg2 harg2 arg3 harg3 arg4 harg4 arg5 harg5 hc1 hc2 hc3 hc4 x0 x1 xo xs).2.1, y ∈ pc.1.set :=
  View.cover_of_tiledL (kernelRun_D c i arg2 harg2 arg3 harg3 arg4 harg4 arg5 harg5 hc1 hc2 hc3 hc4 x0 x1 xo xs).2.1 S1x4096.size (by sl_kernel_rfl) y

/-- What a point of kind D leaves in the scratch: its pieces read back. -/
def sout_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (kernelRun_D c i arg2 harg2 arg3 harg3 arg4 harg4 arg5 harg5 hc1 hc2 hc3 hc4 x0 x1 xo xs).2.1)

/-! ## What the loss buffer and the scratch hold after each point -/

/-- The loss buffer (first component) and the scratch (second) after the body at position `n`: the pieces of the
    point's kind, over the point's input blocks and over what position `n - 1` left. -/
def outsAt (c : Dev nD) : (n : ℕ) → n < cfg0.N → Vec F S1x1 .f32 × Vec F S1x4096 .f32
  | 0, hn =>
    have h0 : (⟨0, hn⟩ : Fin cfg0.N).val = 0 := rfl
    (out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond1 ⟨0, hn⟩).mpr h0) ((hcond2 ⟨0, hn⟩).mpr (by rw [h0])) (fun h => ((hcond3 ⟨0, hn⟩).mp h) (by rw [h0])) (fun h => by have := (hcond4 ⟨0, hn⟩).mp h; rw [h0] at this; omega) (iblk m c 0 ⟨0, hn⟩) (iblk m c 1 ⟨0, hn⟩),
     sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond1 ⟨0, hn⟩).mpr h0) ((hcond2 ⟨0, hn⟩).mpr (by rw [h0])) (fun h => ((hcond3 ⟨0, hn⟩).mp h) (by rw [h0])) (fun h => by have := (hcond4 ⟨0, hn⟩).mp h; rw [h0] at this; omega) (iblk m c 0 ⟨0, hn⟩) (iblk m c 1 ⟨0, hn⟩))
  | n + 1, hn =>
    have h0 : ¬(⟨n + 1, hn⟩ : Fin cfg0.N).val = 0 := Nat.succ_ne_zero n
    if h8 : (⟨n + 1, hn⟩ : Fin cfg0.N).val % 8 = 0 then
      (out_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) ((hcond2 ⟨n + 1, hn⟩).mpr h8) (fun h => ((hcond3 ⟨n + 1, hn⟩).mp h) h8) (fun h => by have := (hcond4 ⟨n + 1, hn⟩).mp h; omega) (iblk m c 0 ⟨n + 1, hn⟩) (iblk m c 1 ⟨n + 1, hn⟩) (outsAt c n (Nat.lt_of_succ_lt hn)).1,
       sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) ((hcond2 ⟨n + 1, hn⟩).mpr h8) (fun h => ((hcond3 ⟨n + 1, hn⟩).mp h) h8) (fun h => by have := (hcond4 ⟨n + 1, hn⟩).mp h; omega) (iblk m c 0 ⟨n + 1, hn⟩) (iblk m c 1 ⟨n + 1, hn⟩) (outsAt c n (Nat.lt_of_succ_lt hn)).1)
    else if h7 : (⟨n + 1, hn⟩ : Fin cfg0.N).val % 8 = 7 then
      (out_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) (fun h => h8 ((hcond2 ⟨n + 1, hn⟩).mp h)) ((hcond3 ⟨n + 1, hn⟩).mpr h8) ((hcond4 ⟨n + 1, hn⟩).mpr h7) (iblk m c 0 ⟨n + 1, hn⟩) (iblk m c 1 ⟨n + 1, hn⟩) (outsAt c n (Nat.lt_of_succ_lt hn)).1 (outsAt c n (Nat.lt_of_succ_lt hn)).2,
       sout_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) (fun h => h8 ((hcond2 ⟨n + 1, hn⟩).mp h)) ((hcond3 ⟨n + 1, hn⟩).mpr h8) ((hcond4 ⟨n + 1, hn⟩).mpr h7) (iblk m c 0 ⟨n + 1, hn⟩) (iblk m c 1 ⟨n + 1, hn⟩) (outsAt c n (Nat.lt_of_succ_lt hn)).1 (outsAt c n (Nat.lt_of_succ_lt hn)).2)
    else
      (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) (fun h => h8 ((hcond2 ⟨n + 1, hn⟩).mp h)) ((hcond3 ⟨n + 1, hn⟩).mpr h8) (fun h => h7 ((hcond4 ⟨n + 1, hn⟩).mp h)) (iblk m c 0 ⟨n + 1, hn⟩) (iblk m c 1 ⟨n + 1, hn⟩) (outsAt c n (Nat.lt_of_succ_lt hn)).1 (outsAt c n (Nat.lt_of_succ_lt hn)).2,
       sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) (fun h => h8 ((hcond2 ⟨n + 1, hn⟩).mp h)) ((hcond3 ⟨n + 1, hn⟩).mpr h8) (fun h => h7 ((hcond4 ⟨n + 1, hn⟩).mp h)) (iblk m c 0 ⟨n + 1, hn⟩) (iblk m c 1 ⟨n + 1, hn⟩) (outsAt c n (Nat.lt_of_succ_lt hn)).1 (outsAt c n (Nat.lt_of_succ_lt hn)).2)

/-- What the point before `t` left (position `t - 1`). -/
abbrev prev (c : Dev nD) (t : Fin cfg0.N) : Vec F S1x1 .f32 × Vec F S1x4096 .f32 :=
  outsAt m c (t.val - 1) (Nat.lt_of_le_of_lt (Nat.sub_le _ _) t.isLt)

/-- `outsAt` at the first point. -/
theorem outsAt_A (c : Dev nD) (t : Fin cfg0.N) (h0 : t.val = 0) :
    outsAt m c t.val t.isLt = (out_A c (grid0.coords t) (ms0 t) (hs0 t) (ms1 t) (hs1 t) (ms2 t) (hs2 t) scM (Memref.isWhole_whole _) ((hcond1 t).mpr h0) ((hcond2 t).mpr (by rw [h0])) (fun h => ((hcond3 t).mp h) (by rw [h0])) (fun h => by have := (hcond4 t).mp h; rw [h0] at this; omega) (iblk m c 0 t) (iblk m c 1 t), sout_A c (grid0.coords t) (ms0 t) (hs0 t) (ms1 t) (hs1 t) (ms2 t) (hs2 t) scM (Memref.isWhole_whole _) ((hcond1 t).mpr h0) ((hcond2 t).mpr (by rw [h0])) (fun h => ((hcond3 t).mp h) (by rw [h0])) (fun h => by have := (hcond4 t).mp h; rw [h0] at this; omega) (iblk m c 0 t) (iblk m c 1 t)) := by
  obtain ⟨n, hn⟩ := t
  cases n with
  | zero => rfl
  | succ n => exact absurd h0 (Nat.succ_ne_zero n)

/-- `outsAt` at the first block of a later batch. -/
theorem outsAt_B (c : Dev nD) (t : Fin cfg0.N) (h0 : ¬t.val = 0) (h8 : t.val % 8 = 0) :
    outsAt m c t.val t.isLt = (out_B c (grid0.coords t) (ms0 t) (hs0 t) (ms1 t) (hs1 t) (ms2 t) (hs2 t) scM (Memref.isWhole_whole _) (fun h => h0 ((hcond1 t).mp h)) ((hcond2 t).mpr h8) (fun h => ((hcond3 t).mp h) h8) (fun h => by have := (hcond4 t).mp h; omega) (iblk m c 0 t) (iblk m c 1 t) (prev m c t).1, sout_B c (grid0.coords t) (ms0 t) (hs0 t) (ms1 t) (hs1 t) (ms2 t) (hs2 t) scM (Memref.isWhole_whole _) (fun h => h0 ((hcond1 t).mp h)) ((hcond2 t).mpr h8) (fun h => ((hcond3 t).mp h) h8) (fun h => by have := (hcond4 t).mp h; omega) (iblk m c 0 t) (iblk m c 1 t) (prev m c t).1) := by
  obtain ⟨n, hn⟩ := t
  cases n with
  | zero => exact absurd rfl h0
  | succ n => exact (dif_pos h8).trans rfl

/-- `outsAt` at a middle block. -/
theorem outsAt_C (c : Dev nD) (t : Fin cfg0.N) (h0 : ¬t.val = 0) (h8 : ¬t.val % 8 = 0) (h7 : ¬t.val % 8 = 7) :
    outsAt m c t.val t.isLt = (out_C c (grid0.coords t) (ms0 t) (hs0 t) (ms1 t) (hs1 t) (ms2 t) (hs2 t) scM (Memref.isWhole_whole _) (fun h => h0 ((hcond1 t).mp h)) (fun h => h8 ((hcond2 t).mp h)) ((hcond3 t).mpr h8) (fun h => h7 ((hcond4 t).mp h)) (iblk m c 0 t) (iblk m c 1 t) (prev m c t).1 (prev m c t).2, sout_C c (grid0.coords t) (ms0 t) (hs0 t) (ms1 t) (hs1 t) (ms2 t) (hs2 t) scM (Memref.isWhole_whole _) (fun h => h0 ((hcond1 t).mp h)) (fun h => h8 ((hcond2 t).mp h)) ((hcond3 t).mpr h8) (fun h => h7 ((hcond4 t).mp h)) (iblk m c 0 t) (iblk m c 1 t) (prev m c t).1 (prev m c t).2) := by
  obtain ⟨n, hn⟩ := t
  cases n with
  | zero => exact absurd rfl h0
  | succ n => exact (dif_neg h8).trans ((dif_neg h7).trans rfl)

/-- `outsAt` at a last block. -/
theorem outsAt_D (c : Dev nD) (t : Fin cfg0.N) (h0 : ¬t.val = 0) (h8 : ¬t.val % 8 = 0) (h7 : t.val % 8 = 7) :
    outsAt m c t.val t.isLt = (out_D c (grid0.coords t) (ms0 t) (hs0 t) (ms1 t) (hs1 t) (ms2 t) (hs2 t) scM (Memref.isWhole_whole _) (fun h => h0 ((hcond1 t).mp h)) (fun h => h8 ((hcond2 t).mp h)) ((hcond3 t).mpr h8) ((hcond4 t).mpr h7) (iblk m c 0 t) (iblk m c 1 t) (prev m c t).1 (prev m c t).2, sout_D c (grid0.coords t) (ms0 t) (hs0 t) (ms1 t) (hs1 t) (ms2 t) (hs2 t) scM (Memref.isWhole_whole _) (fun h => h0 ((hcond1 t).mp h)) (fun h => h8 ((hcond2 t).mp h)) ((hcond3 t).mpr h8) ((hcond4 t).mpr h7) (iblk m c 0 t) (iblk m c 1 t) (prev m c t).1 (prev m c t).2) := by
  obtain ⟨n, hn⟩ := t
  cases n with
  | zero => exact absurd rfl h0
  | succ n => exact (dif_neg h8).trans ((dif_pos h7).trans rfl)

/-- The region invariant before position `n`: before the first point the class's (the scratch at anything);
    afterwards the scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body at point `t` each input's buffer at its block and the loss
    buffer at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At any point but the first the loss buffer holds what the point before left: it is written back only after
    the last point. -/
theorem before2 (c : Dev nD) (t : Fin cfg0.N) (h0 : ¬t.val = 0) (d) :
    (dats m 0 c).before 2 t d = (prev m c t).1 := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 4800000 in
/-- The body at any point: the inputs' memrefs hold their blocks; the point's number says of which kind it is; the loss
    buffer holds what the point before left (anything at the first point); the invariant hands over the scratch at what
    the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [after0, after1, after2]
  have hN : t.val < 32 := lt_of_lt_of_eq t.isLt (show cfg0.N = 32 from N_0)
  by_cases h0 : t.val = 0
  · rw [outsAt_A m c t h0]
    unfold out_A sout_A; (try dsimp only)
    rw [PhiS_castSucc m c t, PhiS_zero m c _ _ h0, PhiA_eq]
    iintro ⟨⟨HS, Hg⟩, Ho, ⟨%d0, H0⟩, ⟨%d1, H1⟩, ⟨%d2, H2⟩⟩
    iapply ((kernelRun_A c (grid0.coords t) _ _ _ _ _ _ _ _ ((hcond1 t).mpr h0) ((hcond2 t).mpr (by rw [h0])) (fun h => ((hcond3 t).mp h) (by rw [h0])) (fun h => by have := (hcond4 t).mp h; rw [h0] at this; omega) (iblk m c 0 t) (iblk m c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact View.read_writes_of_cover _ _ _ _ _ (scover_A c _ _ _ _ _ _ _ _ _ _ _ _ _ _ _ )
      iexact Hg
    isplitl [Ho]; · iexact Ho
    isplitl [H0]; · iexact H0
    isplitl [H1]; · iexact H1
    unfold owns; iexists _; isplitr
    swap; · iexact H2
    ipureintro; exact View.read_writes_of_cover _ _ _ _ _ (cover_A c _ _ _ _ _ _ _ _ _ _ _ _ _ _ _ )
  · simp only [before2 m c t h0]
    rw [PhiS_castSucc m c t, PhiS_pos m c _ _ h0]
    by_cases h8 : t.val % 8 = 0
    · rw [outsAt_B m c t h0 h8]
      unfold out_B sout_B; (try dsimp only)
      iintro ⟨⟨HS, Hg⟩, Ho, ⟨%d0, H0⟩, ⟨%d1, H1⟩, ⟨%d2, H2⟩⟩
      iapply ((kernelRun_B c (grid0.coords t) _ _ _ _ _ _ _ _ (fun h => h0 ((hcond1 t).mp h)) ((hcond2 t).mpr h8) (fun h => ((hcond3 t).mp h) h8) (fun h => by have := (hcond4 t).mp h; omega) (iblk m c 0 t) (iblk m c 1 t) _).2.2 Set.univ _)
      isplitl [H0]; · iexact H0
      isplitl [H1]; · iexact H1
      isplitl [H2]; · iexact H2
      isplitl [HS]; · iexists _; iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (cover_B c _ _ _ _ _ _ _ _ _ _ _ _ _ _ _ _ )
    · by_cases h7 : t.val % 8 = 7
      · rw [outsAt_D m c t h0 h8 h7]
        unfold out_D sout_D; (try dsimp only)
        iintro ⟨⟨HS, Hg⟩, Ho, ⟨%d0, H0⟩, ⟨%d1, H1⟩, ⟨%d2, H2⟩⟩
        iapply ((kernelRun_D c (grid0.coords t) _ _ _ _ _ _ _ _ (fun h => h0 ((hcond1 t).mp h)) (fun h => h8 ((hcond2 t).mp h)) ((hcond3 t).mpr h8) ((hcond4 t).mpr h7) (iblk m c 0 t) (iblk m c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scover_D c _ _ _ _ _ _ _ _ _ _ _ _ _ _ _ _ _ )
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D c _ _ _ _ _ _ _ _ _ _ _ _ _ _ _ _ _ )
      · rw [outsAt_C m c t h0 h8 h7]
        unfold out_C sout_C; (try dsimp only)
        iintro ⟨⟨HS, Hg⟩, Ho, ⟨%d0, H0⟩, ⟨%d1, H1⟩, ⟨%d2, H2⟩⟩
        iapply ((kernelRun_C c (grid0.coords t) _ _ _ _ _ _ _ _ (fun h => h0 ((hcond1 t).mp h)) (fun h => h8 ((hcond2 t).mp h)) ((hcond3 t).mpr h8) (fun h => h7 ((hcond4 t).mp h)) (iblk m c 0 t) (iblk m c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _ _ )
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C c _ _ _ _ _ _ _ _ _ _ _ _ _ _ _ _ _ )

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has every array of the pipeline at what the
    proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to its end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyKICases.lean ====
/-
  The control of the chamfer kernel's body over its grid of 4 batches by 8 blocks of rows.

  The body branches four times on the grid coordinates (batch `i 0`, block `i 1`): it zeroes the loss
  accumulator at the very first point, it overwrites the column-minimum scratch at the first block of a batch,
  folds into it at the later blocks, and adds the scratch's sum to the loss at the last block of a batch.
  Over the 32 points, numbered `t = 8·batch + block`, the four conditions are `t = 0`, `t % 8 = 0`,
  `t % 8 ≠ 0`, `t % 8 = 7`: so every point is of one of four kinds — the first point, the first block of a
  later batch, a middle block, a last block. Also here: the staging and scratch memrefs the body is run on, and the
  region invariant with the scratch as an owned memref.
-/
import proofs.«159343_g75617194213799_fold_wed_c4_881_5_alg».proof.Proof.Gen.KernelIdeal.Frame
import proofs.«159343_g75617194213799_fold_wed_c4_881_5_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four branch conditions, from the grid coordinates -/

/-- "The very first point": batch 0 and block 0. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "The first block of a batch". -/
abbrev cond2 (i : grid0.Coords) : Prop :=
  (Scalar.cmpi .ne (Scalar.extui (Scalar.cmpi .eq (BitVec.ofNat 32 (i 1).val) 0#32)) 0#32) = 1#1
/-- "A later block of a batch". -/
abbrev cond3 (i : grid0.Coords) : Prop :=
  (Scalar.cmpi .ne (Scalar.extui (Scalar.cmpi .sgt (BitVec.ofNat 32 (i 1).val) 0#32)) 0#32) = 1#1
/-- "The last block of a batch". -/
abbrev cond4 (i : grid0.Coords) : Prop :=
  (Scalar.cmpi .ne (Scalar.extui (Scalar.cmpi .eq (BitVec.ofNat 32 (i 1).val) 7#32)) 0#32) = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 8 = 0 :=
  (by decide +kernel : ∀ t : Fin grid0.N, cond2 (grid0.coords t) ↔ t.val % 8 = 0)
theorem hcond3 : ∀ t : Fin cfg0.N, cond3 (grid0.coords t) ↔ ¬t.val % 8 = 0 :=
  (by decide +kernel : ∀ t : Fin grid0.N, cond3 (grid0.coords t) ↔ ¬t.val % 8 = 0)
theorem hcond4 : ∀ t : Fin cfg0.N, cond4 (grid0.coords t) ↔ t.val % 8 = 7 :=
  (by decide +kernel : ∀ t : Fin grid0.N, cond4 (grid0.coords t) ↔ t.val % 8 = 7)

/-! ## The memrefs the body runs on -/

/-- One staging buffer of the loss window, through which its contents are stated. -/
abbrev VO : View sig .tc .vmem S1x1 .f32 := (Memref.whole cc0_stg2_0 : Memref sig .tc .vmem S1x1 .f32).view
/-- Each window's current staging memref at point `t`, as the pipeline passes it, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The column-minimum scratch: a whole scoped buffer of the kernel's own. -/
abbrev scM : Memref sig .tc .vmem S1x4096 .f32 := Memref.whole cc0_scratch0
abbrev VS : View sig .tc .vmem S1x4096 .f32 := scM.view

/-- The region's class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.BodyKIRunA.lean ====
/-
  The kernel body run at the very first point (the loss accumulator is zeroed first, the scratch overwritten):
  from the two input blocks in their staging memrefs, the loss buffer and the scratch, the body terminates
  and leaves the inputs in place, the loss buffer with a list of written pieces and the scratch with a list of
  written pieces. The two lists are found by running the body symbolically; they are the run's witness.
-/
import proofs.«159343_g75617194213799_fold_wed_c4_881_5_alg».proof.Proof.BodyKICases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the loss buffer (first component) and in the scratch (second), with the proof
    that the body, run on whole memrefs holding the input blocks `x0`, `x1`,
    reaches its continuation with exactly those pieces written. -/
noncomputable def kernelRun_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) :
    Σ' (L2 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Body

end
-- ==== Proof.BodyKIRunB.lean ====
/-
  The kernel body run at the first block of a later batch (the loss accumulator is read, the scratch overwritten):
  from the two input blocks in their staging memrefs, the loss buffer and the scratch, the body terminates
  and leaves the inputs in place, the loss buffer with a list of written pieces and the scratch with a list of
  written pieces. The two lists are found by running the body symbolically; they are the run's witness.
-/
import proofs.«159343_g75617194213799_fold_wed_c4_881_5_alg».proof.Proof.BodyKIRunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the loss buffer (first component) and in the scratch (second), with the proof
    that the body, run on whole memrefs holding the input blocks `x0`, `x1`, the loss so far `xo`,
    reaches its continuation with exactly those pieces written. -/
noncomputable def kernelRun_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) :
    Σ' (L2 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Body

end
-- ==== Proof.BodyKIRunC.lean ====
/-
  The kernel body run at a middle block (the loss accumulator and the scratch are both read and folded into):
  from the two input blocks in their staging memrefs, the loss buffer and the scratch, the body terminates
  and leaves the inputs in place, the loss buffer with a list of written pieces and the scratch with a list of
  written pieces. The two lists are found by running the body symbolically; they are the run's witness.
-/
import proofs.«159343_g75617194213799_fold_wed_c4_881_5_alg».proof.Proof.BodyKIRunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the loss buffer (first component) and in the scratch (second), with the proof
    that the body, run on whole memrefs holding the input blocks `x0`, `x1`, the loss so far `xo` and the column minima so far `xs`,
    reaches its continuation with exactly those pieces written. -/
noncomputable def kernelRun_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) :
    Σ' (L2 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Body

end
-- ==== Proof.BodyKIRunD.lean ====
/-
  The kernel body run at the last block of a batch (as at a middle block, then the scratch's sum is added to the loss):
  from the two input blocks in their staging memrefs, the loss buffer and the scratch, the body terminates
  and leaves the inputs in place, the loss buffer with a list of written pieces and the scratch with a list of
  written pieces. The two lists are found by running the body symbolically; they are the run's witness.
-/
import proofs.«159343_g75617194213799_fold_wed_c4_881_5_alg».proof.Proof.BodyKIRunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the loss buffer (first component) and in the scratch (second), with the proof
    that the body, run on whole memrefs holding the input blocks `x0`, `x1`, the loss so far `xo` and the column minima so far `xs`,
    reaches its continuation with exactly those pieces written. -/
noncomputable def kernelRun_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) :
    Σ' (L2 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Body

end
-- ==== Proof.BodyKIFrame.lean ====
/-
  The chamfer kernel runs to its end, faults nowhere and leaves its argument arrays unchanged; and after the
  run the loss array holds what the thirty-two grid points accumulated.

  Per kind of point (the first point; the first block of a later batch; a middle block; a last block) the body's run
  leaves a list of pieces in the loss buffer and in the column-minimum scratch; each list covers its buffer, so what
  the buffer holds is the pieces read back. `outsAt` follows the two buffers point by point: each point's contents
  are its kind's pieces over the input blocks of the point and over what the point before left. The pipeline's proof
  data state this; the region invariant carries the scratch at `outsAt`'s second component between points; the body
  obligation is the kind's run at every point; the launch theorem then runs @main: the transposition before the region,
  the region, the reshaping after it.
-/
import proofs.«159343_g75617194213799_fold_wed_c4_881_5_alg».proof.Proof.BodyKIRunD

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces a point of kind A leaves in the loss buffer cover it. -/
theorem cover_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) (y : S1x1.Idx) :
    ∃ pc ∈ (kernelRun_A c i arg2 harg2 arg3 harg3 arg4 harg4 arg5 harg5 hc1 hc2 hc3 hc4 x0 x1).1, y ∈ pc.1.set :=
  View.cover_of_tiledL (kernelRun_A c i arg2 harg2 arg3 harg3 arg4 harg4 arg5 harg5 hc1 hc2 hc3 hc4 x0 x1).1 S1x1.size (by sl_kernel_rfl) y

/-- What a point of kind A leaves in the loss buffer: its pieces read back. -/
def out_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) : Vec F S1x1 .f32 :=
  VO.read (Elt F) (VO.writes (Elt F) VO.junk (kernelRun_A c i arg2 harg2 arg3 harg3 arg4 harg4 arg5 harg5 hc1 hc2 hc3 hc4 x0 x1).1)

/-- The pieces a point of kind A leaves in the scratch cover it. -/
theorem scover_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) (y : S1x4096.Idx) :
    ∃ pc ∈ (kernelRun_A c i arg2 harg2 arg3 harg3 arg4 harg4 arg5 harg5 hc1 hc2 hc3 hc4 x0 x1).2.1, y ∈ pc.1.set :=
  View.cover_of_tiledL (kernelRun_A c i arg2 harg2 arg3 harg3 arg4 harg4 arg5 harg5 hc1 hc2 hc3 hc4 x0 x1).2.1 S1x4096.size (by sl_kernel_rfl) y

/-- What a point of kind A leaves in the scratch: its pieces read back. -/
def sout_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) : Vec F S1x4096 .f32 :=
  VS.read (Elt F) (VS.writes (Elt F) VS.junk (kernelRun_A c i arg2 harg2 arg3 harg3 arg4 harg4 arg5 harg5 hc1 hc2 hc3 hc4 x0 x1).2.1)

/-- The pieces a point of kind B leaves in the loss buffer cover it. -/
theorem cover_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) (y : S1x1.Idx) :
    ∃ pc ∈ (kernelRun_B c i arg2 harg2 arg3 harg3 arg4 harg4 arg5 harg5 hc1 hc2 hc3 hc4 x0 x1 xo).1, y ∈ pc.1.set :=
  View.cover_of_tiledL (kernelRun_B c i arg2 harg2 arg3 harg3 arg4 harg4 arg5 harg5 hc1 hc2 hc3 hc4 x0 x1 xo).1 S1x1.size (by sl_kernel_rfl) y

/-- What a point of kind B leaves in the loss buffer: its pieces read back. -/
def out_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) : Vec F S1x1 .f32 :=
  VO.read (Elt F) (VO.writes (Elt F) VO.junk (kernelRun_B c i arg2 harg2 arg3 harg3 arg4 harg4 arg5 harg5 hc1 hc2 hc3 hc4 x0 x1 xo).1)

/-- The pieces a point of kind B leaves in the scratch cover it. -/
theorem scover_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) (y : S1x4096.Idx) :
    ∃ pc ∈ (kernelRun_B c i arg2 harg2 arg3 harg3 arg4 harg4 arg5 harg5 hc1 hc2 hc3 hc4 x0 x1 xo).2.1, y ∈ pc.1.set :=
  View.cover_of_tiledL (kernelRun_B c i arg2 harg2 arg3 harg3 arg4 harg4 arg5 harg5 hc1 hc2 hc3 hc4 x0 x1 xo).2.1 S1x4096.size (by sl_kernel_rfl) y

/-- What a point of kind B leaves in the scratch: its pieces read back. -/
def sout_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) : Vec F S1x4096 .f32 :=
  VS.read (Elt F) (VS.writes (Elt F) VS.junk (kernelRun_B c i arg2 harg2 arg3 harg3 arg4 harg4 arg5 harg5 hc1 hc2 hc3 hc4 x0 x1 xo).2.1)

/-- The pieces a point of kind C leaves in the loss buffer cover it. -/
theorem cover_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) (y : S1x1.Idx) :
    ∃ pc ∈ (kernelRun_C c i arg2 harg2 arg3 harg3 arg4 harg4 arg5 harg5 hc1 hc2 hc3 hc4 x0 x1 xo xs).1, y ∈ pc.1.set :=
  View.cover_of_tiledL (kernelRun_C c i arg2 harg2 arg3 harg3 arg4 harg4 arg5 harg5 hc1 hc2 hc3 hc4 x0 x1 xo xs).1 S1x1.size (by sl_kernel_rfl) y

/-- What a point of kind C leaves in the loss buffer: its pieces read back. -/
def out_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (kernelRun_C c i arg2 harg2 arg3 harg3 arg4 harg4 arg5 harg5 hc1 hc2 hc3 hc4 x0 x1 xo xs).1)

/-- The pieces a point of kind C leaves in the scratch cover it. -/
theorem scover_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) (y : S1x4096.Idx) :
    ∃ pc ∈ (kernelRun_C c i arg2 harg2 arg3 harg3 arg4 harg4 arg5 harg5 hc1 hc2 hc3 hc4 x0 x1 xo xs).2.1, y ∈ pc.1.set :=
  View.cover_of_tiledL (kernelRun_C c i arg2 harg2 arg3 harg3 arg4 harg4 arg5 harg5 hc1 hc2 hc3 hc4 x0 x1 xo xs).2.1 S1x4096.size (by sl_kernel_rfl) y

/-- What a point of kind C leaves in the scratch: its pieces read back. -/
def sout_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (kernelRun_C c i arg2 harg2 arg3 harg3 arg4 harg4 arg5 harg5 hc1 hc2 hc3 hc4 x0 x1 xo xs).2.1)

/-- The pieces a point of kind D leaves in the loss buffer cover it. -/
theorem cover_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) (y : S1x1.Idx) :
    ∃ pc ∈ (kernelRun_D c i arg2 harg2 arg3 harg3 arg4 harg4 arg5 harg5 hc1 hc2 hc3 hc4 x0 x1 xo xs).1, y ∈ pc.1.set :=
  View.cover_of_tiledL (kernelRun_D c i arg2 harg2 arg3 harg3 arg4 harg4 arg5 harg5 hc1 hc2 hc3 hc4 x0 x1 xo xs).1 S1x1.size (by sl_kernel_rfl) y

/-- What a point of kind D leaves in the loss buffer: its pieces read back. -/
def out_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (kernelRun_D c i arg2 harg2 arg3 harg3 arg4 harg4 arg5 harg5 hc1 hc2 hc3 hc4 x0 x1 xo xs).1)

/-- The pieces a point of kind D leaves in the scratch cover it. -/
theorem scover_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) (y : S1x4096.Idx) :
    ∃ pc ∈ (kernelRun_D c i arg2 harg2 arg3 harg3 arg4 harg4 arg5 harg5 hc1 hc2 hc3 hc4 x0 x1 xo xs).2.1, y ∈ pc.1.set :=
  View.cover_of_tiledL (kernelRun_D c i arg2 harg2 arg3 harg3 arg4 harg4 arg5 harg5 hc1 hc2 hc3 hc4 x0 x1 xo xs).2.1 S1x4096.size (by sl_kernel_rfl) y

/-- What a point of kind D leaves in the scratch: its pieces read back. -/
def sout_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (kernelRun_D c i arg2 harg2 arg3 harg3 arg4 harg4 arg5 harg5 hc1 hc2 hc3 hc4 x0 x1 xo xs).2.1)

/-! ## What the loss buffer and the scratch hold after each point -/

/-- The loss buffer (first component) and the scratch (second) after the body at position `n`: the pieces of the
    point's kind, over the point's input blocks and over what position `n - 1` left. -/
def outsAt (c : Dev nD) : (n : ℕ) → n < cfg0.N → Vec F S1x1 .f32 × Vec F S1x4096 .f32
  | 0, hn =>
    have h0 : (⟨0, hn⟩ : Fin cfg0.N).val = 0 := rfl
    (out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond1 ⟨0, hn⟩).mpr h0) ((hcond2 ⟨0, hn⟩).mpr (by rw [h0])) (fun h => ((hcond3 ⟨0, hn⟩).mp h) (by rw [h0])) (fun h => by have := (hcond4 ⟨0, hn⟩).mp h; rw [h0] at this; omega) (iblk m c 0 ⟨0, hn⟩) (iblk m c 1 ⟨0, hn⟩),
     sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond1 ⟨0, hn⟩).mpr h0) ((hcond2 ⟨0, hn⟩).mpr (by rw [h0])) (fun h => ((hcond3 ⟨0, hn⟩).mp h) (by rw [h0])) (fun h => by have := (hcond4 ⟨0, hn⟩).mp h; rw [h0] at this; omega) (iblk m c 0 ⟨0, hn⟩) (iblk m c 1 ⟨0, hn⟩))
  | n + 1, hn =>
    have h0 : ¬(⟨n + 1, hn⟩ : Fin cfg0.N).val = 0 := Nat.succ_ne_zero n
    if h8 : (⟨n + 1, hn⟩ : Fin cfg0.N).val % 8 = 0 then
      (out_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) ((hcond2 ⟨n + 1, hn⟩).mpr h8) (fun h => ((hcond3 ⟨n + 1, hn⟩).mp h) h8) (fun h => by have := (hcond4 ⟨n + 1, hn⟩).mp h; omega) (iblk m c 0 ⟨n + 1, hn⟩) (iblk m c 1 ⟨n + 1, hn⟩) (outsAt c n (Nat.lt_of_succ_lt hn)).1,
       sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) ((hcond2 ⟨n + 1, hn⟩).mpr h8) (fun h => ((hcond3 ⟨n + 1, hn⟩).mp h) h8) (fun h => by have := (hcond4 ⟨n + 1, hn⟩).mp h; omega) (iblk m c 0 ⟨n + 1, hn⟩) (iblk m c 1 ⟨n + 1, hn⟩) (outsAt c n (Nat.lt_of_succ_lt hn)).1)
    else if h7 : (⟨n + 1, hn⟩ : Fin cfg0.N).val % 8 = 7 then
      (out_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) (fun h => h8 ((hcond2 ⟨n + 1, hn⟩).mp h)) ((hcond3 ⟨n + 1, hn⟩).mpr h8) ((hcond4 ⟨n + 1, hn⟩).mpr h7) (iblk m c 0 ⟨n + 1, hn⟩) (iblk m c 1 ⟨n + 1, hn⟩) (outsAt c n (Nat.lt_of_succ_lt hn)).1 (outsAt c n (Nat.lt_of_succ_lt hn)).2,
       sout_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) (fun h => h8 ((hcond2 ⟨n + 1, hn⟩).mp h)) ((hcond3 ⟨n + 1, hn⟩).mpr h8) ((hcond4 ⟨n + 1, hn⟩).mpr h7) (iblk m c 0 ⟨n + 1, hn⟩) (iblk m c 1 ⟨n + 1, hn⟩) (outsAt c n (Nat.lt_of_succ_lt hn)).1 (outsAt c n (Nat.lt_of_succ_lt hn)).2)
    else
      (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) (fun h => h8 ((hcond2 ⟨n + 1, hn⟩).mp h)) ((hcond3 ⟨n + 1, hn⟩).mpr h8) (fun h => h7 ((hcond4 ⟨n + 1, hn⟩).mp h)) (iblk m c 0 ⟨n + 1, hn⟩) (iblk m c 1 ⟨n + 1, hn⟩) (outsAt c n (Nat.lt_of_succ_lt hn)).1 (outsAt c n (Nat.lt_of_succ_lt hn)).2,
       sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcond1 ⟨n + 1, hn⟩).mp h)) (fun h => h8 ((hcond2 ⟨n + 1, hn⟩).mp h)) ((hcond3 ⟨n + 1, hn⟩).mpr h8) (fun h => h7 ((hcond4 ⟨n + 1, hn⟩).mp h)) (iblk m c 0 ⟨n + 1, hn⟩) (iblk m c 1 ⟨n + 1, hn⟩) (outsAt c n (Nat.lt_of_succ_lt hn)).1 (outsAt c n (Nat.lt_of_succ_lt hn)).2)

/-- What the point before `t` left (position `t - 1`). -/
abbrev prev (c : Dev nD) (t : Fin cfg0.N) : Vec F S1x1 .f32 × Vec F S1x4096 .f32 :=
  outsAt m c (t.val - 1) (Nat.lt_of_le_of_lt (Nat.sub_le _ _) t.isLt)

/-- `outsAt` at the first point. -/
theorem outsAt_A (c : Dev nD) (t : Fin cfg0.N) (h0 : t.val = 0) :
    outsAt m c t.val t.isLt = (out_A c (grid0.coords t) (ms0 t) (hs0 t) (ms1 t) (hs1 t) (ms2 t) (hs2 t) scM (Memref.isWhole_whole _) ((hcond1 t).mpr h0) ((hcond2 t).mpr (by rw [h0])) (fun h => ((hcond3 t).mp h) (by rw [h0])) (fun h => by have := (hcond4 t).mp h; rw [h0] at this; omega) (iblk m c 0 t) (iblk m c 1 t), sout_A c (grid0.coords t) (ms0 t) (hs0 t) (ms1 t) (hs1 t) (ms2 t) (hs2 t) scM (Memref.isWhole_whole _) ((hcond1 t).mpr h0) ((hcond2 t).mpr (by rw [h0])) (fun h => ((hcond3 t).mp h) (by rw [h0])) (fun h => by have := (hcond4 t).mp h; rw [h0] at this; omega) (iblk m c 0 t) (iblk m c 1 t)) := by
  obtain ⟨n, hn⟩ := t
  cases n with
  | zero => rfl
  | succ n => exact absurd h0 (Nat.succ_ne_zero n)

/-- `outsAt` at the first block of a later batch. -/
theorem outsAt_B (c : Dev nD) (t : Fin cfg0.N) (h0 : ¬t.val = 0) (h8 : t.val % 8 = 0) :
    outsAt m c t.val t.isLt = (out_B c (grid0.coords t) (ms0 t) (hs0 t) (ms1 t) (hs1 t) (ms2 t) (hs2 t) scM (Memref.isWhole_whole _) (fun h => h0 ((hcond1 t).mp h)) ((hcond2 t).mpr h8) (fun h => ((hcond3 t).mp h) h8) (fun h => by have := (hcond4 t).mp h; omega) (iblk m c 0 t) (iblk m c 1 t) (prev m c t).1, sout_B c (grid0.coords t) (ms0 t) (hs0 t) (ms1 t) (hs1 t) (ms2 t) (hs2 t) scM (Memref.isWhole_whole _) (fun h => h0 ((hcond1 t).mp h)) ((hcond2 t).mpr h8) (fun h => ((hcond3 t).mp h) h8) (fun h => by have := (hcond4 t).mp h; omega) (iblk m c 0 t) (iblk m c 1 t) (prev m c t).1) := by
  obtain ⟨n, hn⟩ := t
  cases n with
  | zero => exact absurd rfl h0
  | succ n => exact (dif_pos h8).trans rfl

/-- `outsAt` at a middle block. -/
theorem outsAt_C (c : Dev nD) (t : Fin cfg0.N) (h0 : ¬t.val = 0) (h8 : ¬t.val % 8 = 0) (h7 : ¬t.val % 8 = 7) :
    outsAt m c t.val t.isLt = (out_C c (grid0.coords t) (ms0 t) (hs0 t) (ms1 t) (hs1 t) (ms2 t) (hs2 t) scM (Memref.isWhole_whole _) (fun h => h0 ((hcond1 t).mp h)) (fun h => h8 ((hcond2 t).mp h)) ((hcond3 t).mpr h8) (fun h => h7 ((hcond4 t).mp h)) (iblk m c 0 t) (iblk m c 1 t) (prev m c t).1 (prev m c t).2, sout_C c (grid0.coords t) (ms0 t) (hs0 t) (ms1 t) (hs1 t) (ms2 t) (hs2 t) scM (Memref.isWhole_whole _) (fun h => h0 ((hcond1 t).mp h)) (fun h => h8 ((hcond2 t).mp h)) ((hcond3 t).mpr h8) (fun h => h7 ((hcond4 t).mp h)) (iblk m c 0 t) (iblk m c 1 t) (prev m c t).1 (prev m c t).2) := by
  obtain ⟨n, hn⟩ := t
  cases n with
  | zero => exact absurd rfl h0
  | succ n => exact (dif_neg h8).trans ((dif_neg h7).trans rfl)

/-- `outsAt` at a last block. -/
theorem outsAt_D (c : Dev nD) (t : Fin cfg0.N) (h0 : ¬t.val = 0) (h8 : ¬t.val % 8 = 0) (h7 : t.val % 8 = 7) :
    outsAt m c t.val t.isLt = (out_D c (grid0.coords t) (ms0 t) (hs0 t) (ms1 t) (hs1 t) (ms2 t) (hs2 t) scM (Memref.isWhole_whole _) (fun h => h0 ((hcond1 t).mp h)) (fun h => h8 ((hcond2 t).mp h)) ((hcond3 t).mpr h8) ((hcond4 t).mpr h7) (iblk m c 0 t) (iblk m c 1 t) (prev m c t).1 (prev m c t).2, sout_D c (grid0.coords t) (ms0 t) (hs0 t) (ms1 t) (hs1 t) (ms2 t) (hs2 t) scM (Memref.isWhole_whole _) (fun h => h0 ((hcond1 t).mp h)) (fun h => h8 ((hcond2 t).mp h)) ((hcond3 t).mpr h8) ((hcond4 t).mpr h7) (iblk m c 0 t) (iblk m c 1 t) (prev m c t).1 (prev m c t).2) := by
  obtain ⟨n, hn⟩ := t
  cases n with
  | zero => exact absurd rfl h0
  | succ n => exact (dif_neg h8).trans ((dif_pos h7).trans rfl)

/-- The region invariant before position `n`: before the first point the class's (the scratch at anything);
    afterwards the scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body at point `t` each input's buffer at its block and the loss
    buffer at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At any point but the first the loss buffer holds what the point before left: it is written back only after
    the last point. -/
theorem before2 (c : Dev nD) (t : Fin cfg0.N) (h0 : ¬t.val = 0) (d) :
    (dats m 0 c).before 2 t d = (prev m c t).1 := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 4800000 in
/-- The body at any point: the inputs' memrefs hold their blocks; the point's number says of which kind it is; the loss
    buffer holds what the point before left (anything at the first point); the invariant hands over the scratch at what
    the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [after0, after1, after2]
  have hN : t.val < 32 := lt_of_lt_of_eq t.isLt (show cfg0.N = 32 from N_0)
  by_cases h0 : t.val = 0
  · rw [outsAt_A m c t h0]
    unfold out_A sout_A; (try dsimp only)
    rw [PhiS_castSucc m c t, PhiS_zero m c _ _ h0, PhiA_eq]
    iintro ⟨⟨HS, Hg⟩, Ho, ⟨%d0, H0⟩, ⟨%d1, H1⟩, ⟨%d2, H2⟩⟩
    iapply ((kernelRun_A c (grid0.coords t) _ _ _ _ _ _ _ _ ((hcond1 t).mpr h0) ((hcond2 t).mpr (by rw [h0])) (fun h => ((hcond3 t).mp h) (by rw [h0])) (fun h => by have := (hcond4 t).mp h; rw [h0] at this; omega) (iblk m c 0 t) (iblk m c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact View.read_writes_of_cover _ _ _ _ _ (scover_A c _ _ _ _ _ _ _ _ _ _ _ _ _ _ _ )
      iexact Hg
    isplitl [Ho]; · iexact Ho
    isplitl [H0]; · iexact H0
    isplitl [H1]; · iexact H1
    unfold owns; iexists _; isplitr
    swap; · iexact H2
    ipureintro; exact View.read_writes_of_cover _ _ _ _ _ (cover_A c _ _ _ _ _ _ _ _ _ _ _ _ _ _ _ )
  · simp only [before2 m c t h0]
    rw [PhiS_castSucc m c t, PhiS_pos m c _ _ h0]
    by_cases h8 : t.val % 8 = 0
    · rw [outsAt_B m c t h0 h8]
      unfold out_B sout_B; (try dsimp only)
      iintro ⟨⟨HS, Hg⟩, Ho, ⟨%d0, H0⟩, ⟨%d1, H1⟩, ⟨%d2, H2⟩⟩
      iapply ((kernelRun_B c (grid0.coords t) _ _ _ _ _ _ _ _ (fun h => h0 ((hcond1 t).mp h)) ((hcond2 t).mpr h8) (fun h => ((hcond3 t).mp h) h8) (fun h => by have := (hcond4 t).mp h; omega) (iblk m c 0 t) (iblk m c 1 t) _).2.2 Set.univ _)
      isplitl [H0]; · iexact H0
      isplitl [H1]; · iexact H1
      isplitl [H2]; · iexact H2
      isplitl [HS]; · iexists _; iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (cover_B c _ _ _ _ _ _ _ _ _ _ _ _ _ _ _ _ )
    · by_cases h7 : t.val % 8 = 7
      · rw [outsAt_D m c t h0 h8 h7]
        unfold out_D sout_D; (try dsimp only)
        iintro ⟨⟨HS, Hg⟩, Ho, ⟨%d0, H0⟩, ⟨%d1, H1⟩, ⟨%d2, H2⟩⟩
        iapply ((kernelRun_D c (grid0.coords t) _ _ _ _ _ _ _ _ (fun h => h0 ((hcond1 t).mp h)) (fun h => h8 ((hcond2 t).mp h)) ((hcond3 t).mpr h8) ((hcond4 t).mpr h7) (iblk m c 0 t) (iblk m c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scover_D c _ _ _ _ _ _ _ _ _ _ _ _ _ _ _ _ _ )
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D c _ _ _ _ _ _ _ _ _ _ _ _ _ _ _ _ _ )
      · rw [outsAt_C m c t h0 h8 h7]
        unfold out_C sout_C; (try dsimp only)
        iintro ⟨⟨HS, Hg⟩, Ho, ⟨%d0, H0⟩, ⟨%d1, H1⟩, ⟨%d2, H2⟩⟩
        iapply ((kernelRun_C c (grid0.coords t) _ _ _ _ _ _ _ _ (fun h => h0 ((hcond1 t).mp h)) (fun h => h8 ((hcond2 t).mp h)) ((hcond3 t).mpr h8) (fun h => h7 ((hcond4 t).mp h)) (iblk m c 0 t) (iblk m c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _ _ )
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C c _ _ _ _ _ _ _ _ _ _ _ _ _ _ _ _ _ )

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has every array of the pipeline at what the
    proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to its end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BodyKIPieces.lean ====
/-
  What each kind of point leaves in the loss buffer and in the column-minimum scratch, as the body's arithmetic.

  Every store of the body covers its whole buffer, so the pieces a run leaves read back as the payload of the last
  store; a load made after a store reads that store's payload. Hence: the loss buffer ends at the row part added to
  the loss so far (to zero at the first point), at a last block with the scratch's sum added on top; the scratch ends
  at the block's column minima (first block of a batch) or at their minimum with the minima so far.
-/
import proofs.«159343_g75617194213799_fold_wed_c4_881_5_alg».proof.Proof.BodyKIFrame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl
theorem hz3 : (![0, 0, 0] : Fin 3 → Nat) = fun _ => 0 := by funext a; fin_cases a <;> rfl

theorem out_A_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) :
    out_A c i arg2 harg2 arg3 harg3 arg4 harg4 arg5 harg5 hc1 hc2 hc3 hc4 x0 x1 = k0_pay1 (k0_pay8 x0 x1) (k0_pay9 (k0_pay6 (F := F))) := by
  unfold out_A
  rw [View.read_writes_eq_canon _ _ _ (cover_A c i arg2 harg2 arg3 harg3 arg4 harg4 arg5 harg5 hc1 hc2 hc3 hc4 x0 x1)]
  unfold kernelRun_A
  dsimp only
  sl_unfold_words
  rw [View.canon_cons_unit_zero hz2]
  simp only [View.readAt_eq_ld, harg2.read_unread, harg3.read_unread, harg4.read_unread, harg5.read_unread,
    View.ld_unit_zero (S := S1x1) hz2, View.ld_unit_zero (S := S1x4096) hz2, View.ld_unit_zero (S := S1x512x3) hz3,
    View.ld_unit_zero (S := S1x3x4096) hz3, View.readCov_unit_zero (S := S1x1) arg4.view hz2, View.readCov_unit_zero (S := S1x4096) arg5.view hz2]
  try rfl

theorem sout_A_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec F S1x512x3 .f32) (x1 : Vec F S1x3x4096 .f32) :
    sout_A c i arg2 harg2 arg3 harg3 arg4 harg4 arg5 harg5 hc1 hc2 hc3 hc4 x0 x1 = k0_pay3 (k0_pay7 x0 x1) := by
  unfold sout_A
  rw [View.read_writes_eq_canon _ _ _ (scover_A c i arg2 harg2 arg3 harg3 arg4 harg4 arg5 harg5 hc1 hc2 hc3 hc4 x0 x1)]
  unfold kernelRun_A
  dsimp only
  sl_unfold_words
  rw [View.canon_cons_unit_zero hz2]
  simp only [View.readAt_eq_ld, harg2.read_unread, harg3.read_unread, harg4.read_unread, harg5.read_unread,
    View.ld_unit_zero (S := S1x1) hz2, View.ld_unit_zero (S := S1x4096) hz2, View.ld_unit_zero (S := S1x512x3) hz3,
    View.ld_unit_zero (S := S1x3x4096) hz3, View.readCov_unit_zero (S := S1x1) arg4.view hz2, View.readCov_unit_zero (S := S1x4096) arg5.view hz2]
  try rfl

theorem out_B_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) :
    out_B c i arg2 harg2 arg3 harg3 arg4 harg4 arg5 harg5 hc1 hc2 hc3 hc4 x0 x1 xo = k0_pay1 (k0_pay8 x0 x1) (k0_pay9 xo) := by
  unfold out_B
  rw [View.read_writes_eq_canon _ _ _ (cover_B c i arg2 harg2 arg3 harg3 arg4 harg4 arg5 harg5 hc1 hc2 hc3 hc4 x0 x1 xo)]
  unfold kernelRun_B
  dsimp only
  sl_unfold_words
  rw [View.canon_cons_unit_zero hz2]
  simp only [View.readAt_eq_ld, harg2.read_unread, harg3.read_unread, harg4.read_unread, harg5.read_unread,
    View.ld_unit_zero (S := S1x1) hz2, View.ld_unit_zero (S := S1x4096) hz2, View.ld_unit_zero (S := S1x512x3) hz3,
    View.ld_unit_zero (S := S1x3x4096) hz3, View.readCov_unit_zero (S := S1x1) arg4.view hz2, View.readCov_unit_zero (S := S1x4096) arg5.view hz2]
  try rfl

theorem sout_B_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec F S1x512x3 .f32) (x1 : Vec F S1x3x4096 .f32) (xo : Vec F S1x1 .f32) :
    sout_B c i arg2 harg2 arg3 harg3 arg4 harg4 arg5 harg5 hc1 hc2 hc3 hc4 x0 x1 xo = k0_pay3 (k0_pay7 x0 x1) := by
  unfold sout_B
  rw [View.read_writes_eq_canon _ _ _ (scover_B c i arg2 harg2 arg3 harg3 arg4 harg4 arg5 harg5 hc1 hc2 hc3 hc4 x0 x1 xo)]
  unfold kernelRun_B
  dsimp only
  sl_unfold_words
  rw [View.canon_cons_unit_zero hz2]
  simp only [View.readAt_eq_ld, harg2.read_unread, harg3.read_unread, harg4.read_unread, harg5.read_unread,
    View.ld_unit_zero (S := S1x1) hz2, View.ld_unit_zero (S := S1x4096) hz2, View.ld_unit_zero (S := S1x512x3) hz3,
    View.ld_unit_zero (S := S1x3x4096) hz3, View.readCov_unit_zero (S := S1x1) arg4.view hz2, View.readCov_unit_zero (S := S1x4096) arg5.view hz2]
  try rfl

theorem out_C_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) :
    out_C c i arg2 harg2 arg3 harg3 arg4 harg4 arg5 harg5 hc1 hc2 hc3 hc4 x0 x1 xo xs = k0_pay1 (k0_pay8 x0 x1) (k0_pay9 xo) := by
  unfold out_C
  rw [View.read_writes_eq_canon _ _ _ (cover_C c i arg2 harg2 arg3 harg3 arg4 harg4 arg5 harg5 hc1 hc2 hc3 hc4 x0 x1 xo xs)]
  unfold kernelRun_C
  dsimp only
  sl_unfold_words
  rw [View.canon_cons_unit_zero hz2]
  simp only [View.readAt_eq_ld, harg2.read_unread, harg3.read_unread, harg4.read_unread, harg5.read_unread,
    View.ld_unit_zero (S := S1x1) hz2, View.ld_unit_zero (S := S1x4096) hz2, View.ld_unit_zero (S := S1x512x3) hz3,
    View.ld_unit_zero (S := S1x3x4096) hz3, View.readCov_unit_zero (S := S1x1) arg4.view hz2, View.readCov_unit_zero (S := S1x4096) arg5.view hz2]
  try rfl

theorem sout_C_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec F S1x512x3 .f32) (x1 : Vec F S1x3x4096 .f32) (xo : Vec F S1x1 .f32) (xs : Vec F S1x4096 .f32) :
    sout_C c i arg2 harg2 arg3 harg3 arg4 harg4 arg5 harg5 hc1 hc2 hc3 hc4 x0 x1 xo xs = k0_pay4 (k0_pay7 x0 x1) xs := by
  unfold sout_C
  rw [View.read_writes_eq_canon _ _ _ (scover_C c i arg2 harg2 arg3 harg3 arg4 harg4 arg5 harg5 hc1 hc2 hc3 hc4 x0 x1 xo xs)]
  unfold kernelRun_C
  dsimp only
  sl_unfold_words
  rw [View.canon_cons_unit_zero hz2]
  simp only [View.readAt_eq_ld, harg2.read_unread, harg3.read_unread, harg4.read_unread, harg5.read_unread,
    View.ld_unit_zero (S := S1x1) hz2, View.ld_unit_zero (S := S1x4096) hz2, View.ld_unit_zero (S := S1x512x3) hz3,
    View.ld_unit_zero (S := S1x3x4096) hz3, View.readCov_unit_zero (S := S1x1) arg4.view hz2, View.readCov_unit_zero (S := S1x4096) arg5.view hz2]
  try rfl

theorem out_D_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) :
    out_D c i arg2 harg2 arg3 harg3 arg4 harg4 arg5 harg5 hc1 hc2 hc3 hc4 x0 x1 xo xs = k0_pay5 (k0_pay1 (k0_pay8 x0 x1) (k0_pay9 xo)) (k0_pay4 (k0_pay7 x0 x1) xs) := by
  unfold out_D
  rw [View.read_writes_eq_canon _ _ _ (cover_D c i arg2 harg2 arg3 harg3 arg4 harg4 arg5 harg5 hc1 hc2 hc3 hc4 x0 x1 xo xs)]
  unfold kernelRun_D
  dsimp only
  sl_unfold_words
  rw [View.canon_cons_unit_zero hz2]
  simp only [View.readAt_eq_ld, harg2.read_unread, harg3.read_unread, harg4.read_unread, harg5.read_unread,
    View.ld_unit_zero (S := S1x1) hz2, View.ld_unit_zero (S := S1x4096) hz2, View.ld_unit_zero (S := S1x512x3) hz3,
    View.ld_unit_zero (S := S1x3x4096) hz3, View.readCov_unit_zero (S := S1x1) arg4.view hz2, View.readCov_unit_zero (S := S1x4096) arg5.view hz2]
  try rfl

theorem sout_D_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec F S1x512x3 .f32) (x1 : Vec F S1x3x4096 .f32) (xo : Vec F S1x1 .f32) (xs : Vec F S1x4096 .f32) :
    sout_D c i arg2 harg2 arg3 harg3 arg4 harg4 arg5 harg5 hc1 hc2 hc3 hc4 x0 x1 xo xs = k0_pay4 (k0_pay7 x0 x1) xs := by
  unfold sout_D
  rw [View.read_writes_eq_canon _ _ _ (scover_D c i arg2 harg2 arg3 harg3 arg4 harg4 arg5 harg5 hc1 hc2 hc3 hc4 x0 x1 xo xs)]
  unfold kernelRun_D
  dsimp only
  sl_unfold_words
  rw [View.canon_cons_unit_zero hz2]
  simp only [View.readAt_eq_ld, harg2.read_unread, harg3.read_unread, harg4.read_unread, harg5.read_unread,
    View.ld_unit_zero (S := S1x1) hz2, View.ld_unit_zero (S := S1x4096) hz2, View.ld_unit_zero (S := S1x512x3) hz3,
    View.ld_unit_zero (S := S1x3x4096) hz3, View.readCov_unit_zero (S := S1x1) arg4.view hz2, View.readCov_unit_zero (S := S1x4096) arg5.view hz2]
  try rfl

end Cert.KernelIdeal.Body

end
-- ==== Proof.Spec.lean ====
/-
  The chamfer loss between two batches of point clouds, as mathematics on the extended reals.

  A cloud is an array of 4 batches of 4096 points with 3 coordinates. For a batch `b`, a point `i` of the
  first cloud and a point `j` of the second, the squared distance is written in two arrangements:
  `dist` sums the squared coordinate differences; `distK` is the expansion
  `-2 x·y + |y|^2 + |x|^2` with the cross term accumulated coordinate by coordinate.
  `lossRef` is the mean over all (batch, point) pairs of the distance to the nearest point of the other
  cloud, in both directions, added; `lossK` is the same quantity accumulated batch by batch and, inside a
  batch, by blocks of 512 rows, each partial sum scaled by 1/16384 before it is added.
  On real entries the two are equal (`SpecLaw.lean`).
-/
import Idealize.ShloMosaic.PureOps.Ideal

noncomputable section

namespace Cert.Chamfer

open scoped BigOperators

/-- A batch of point clouds by coordinates: batch, point, coordinate. -/
abbrev Cloud := Fin 4 → Fin 4096 → Fin 3 → EReal

/-- The scale 1/16384 = 1/(4 * 4096). -/
def κ : EReal := ((1 / 16384 : ℝ) : EReal)

/-- The factor -2 of the cross term. -/
def c2 : EReal := ((-2 : ℝ) : EReal)

/-- Squared distance as the sum of squared coordinate differences. -/
def dist (X Y : Cloud) (b : Fin 4) (i j : Fin 4096) : EReal :=
  ∑ k : Fin 3, (X b i k - Y b j k) * (X b i k - Y b j k)

/-- The mean nearest-neighbour squared distance in both directions, added. -/
def lossRef (X Y : Cloud) : EReal :=
  (∑ b : Fin 4, ∑ i : Fin 4096, ⨅ j : Fin 4096, dist X Y b i j) * κ
    + (∑ b : Fin 4, ∑ j : Fin 4096, ⨅ i : Fin 4096, dist X Y b i j) * κ

/-- Squared distance in the expanded arrangement: the cross term coordinate by coordinate, then the squared
    norm of the second point, then of the first. -/
def distK (X Y : Cloud) (b : Fin 4) (i j : Fin 4096) : EReal :=
  ((((X b i 0 * c2) * Y b j 0 + (X b i 1 * c2) * Y b j 1) + (X b i 2 * c2) * Y b j 2)
      + ∑ k : Fin 3, Y b j k * Y b j k)
    + ∑ k : Fin 3, X b i k * X b i k

/-- Row `r` of the block `c` of 512 rows. -/
def row (c : Fin 8) (r : Fin 512) : Fin 4096 := ⟨512 * c.val + r.val, by omega⟩

/-- The part of the loss a block of 512 rows contributes: the sum of its rows' nearest distances, scaled. -/
def rowPart (X Y : Cloud) (b : Fin 4) (c : Fin 8) : EReal :=
  (∑ r : Fin 512, ⨅ j : Fin 4096, distK X Y b (row c r) j) * κ

/-- The part of the loss the columns of a batch contribute: the sum of the columns' nearest distances, scaled. -/
def colPart (X Y : Cloud) (b : Fin 4) : EReal :=
  (∑ j : Fin 4096, ⨅ i : Fin 4096, distK X Y b i j) * κ

/-- The loss accumulated batch by batch: per batch the eight row blocks' parts, then the columns' part. -/
def lossK (X Y : Cloud) : EReal :=
  ∑ b : Fin 4, ((∑ c : Fin 8, rowPart X Y b c) + colPart X Y b)

end Cert.Chamfer

end
-- ==== Proof.SpecConst.lean ====
/-
  The float constants of the chamfer loss, as the extended reals their bit patterns denote.
-/
import proofs.«159343_g75617194213799_fold_wed_c4_881_5_alg».proof.Proof.Spec

noncomputable section

namespace Cert.Chamfer

open Idealize.ShloMosaic

/-- The pattern of `2^-14` denotes the scale `1/16384`. -/
theorem ofBits_kappa : Ideal.ofBits .f32 0x38800000#32 = κ := by
  unfold κ
  simp [Ideal.ofBits, Ideal.ieee, -EReal.coe_mul]; norm_num

/-- The pattern of `2^14` denotes the real `16384`. -/
theorem ofBits_16384 : Ideal.ofBits .f32 0x46800000#32 = ((16384 : ℝ) : EReal) := by
  simp [Ideal.ofBits, Ideal.ieee, -EReal.coe_mul]; norm_num

/-- The pattern of `-2.0` denotes the factor `-2` of the cross term. -/
theorem ofBits_c2 : Ideal.ofBits .f32 0xC0000000#32 = c2 := by
  unfold c2
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

/-- The pattern of `+inf` denotes `⊤`. -/
theorem ofBits_top : Ideal.ofBits .f32 0x7F800000#32 = ⊤ := by
  simp [Ideal.ofBits, Ideal.ieee]

end Cert.Chamfer

end
-- ==== Proof.LibMinFold.lean ====
/-
  Minima over finite families in a complete linear order, carried by their lower bounds: a fold of `min` from a
  starting value over a whole finite index type, and the same fold read as an infimum.
-/
import Mathlib.Data.Finset.Fold
import Mathlib.Order.CompleteLattice.Basic
import Mathlib.Data.Fintype.Basic

namespace MinFold

variable {α : Type*} [CompleteLinearOrder α] {ι : Type*} [Fintype ι]

/-- `a` is below the fold of `min` from `init` over every index exactly when it is below `init` and below every term. -/
theorem le_fold_min_univ (a init : α) (f : ι → α) :
    a ≤ (Finset.univ : Finset ι).fold min init f ↔ a ≤ init ∧ ∀ k, a ≤ f k := by
  rw [Finset.le_fold_min]
  exact and_congr Iff.rfl ⟨fun h k => h k (Finset.mem_univ k), fun h k _ => h k⟩

/-- From the top element the fold of `min` over every index is the infimum of the family. -/
theorem fold_min_top_univ (f : ι → α) : (Finset.univ : Finset ι).fold min ⊤ f = ⨅ k, f k :=
  eq_of_forall_le_iff fun a => by
    rw [le_fold_min_univ, le_iInf_iff]
    exact ⟨fun h => h.2, fun h => ⟨le_top, h⟩⟩

/-- From any starting value: the starting value met with the infimum. -/
theorem fold_min_univ (init : α) (f : ι → α) : (Finset.univ : Finset ι).fold min init f = min init (⨅ k, f k) :=
  eq_of_forall_le_iff fun a => by
    rw [le_fold_min_univ, le_min_iff, le_iInf_iff]

/-- Two elements with the same lower bounds are equal: the form in which two minima taken in different groupings meet. -/
theorem eq_iInf_of_forall_le_iff {x : α} (f : ι → α) (h : ∀ a, a ≤ x ↔ ∀ k, a ≤ f k) : x = ⨅ k, f k :=
  eq_of_forall_le_iff fun a => by rw [h a, le_iInf_iff]

end MinFold
-- ==== Proof.LibKeepdims.lean ====
/-
  Layout operations a keepdims reduction meets, read at an index written by coordinates: a vector cast to a one-column
  matrix, a one-column matrix broadcast along its rows, a vector seen as a [1, 1, a] block and back, and a load through a
  unit-stride rectangle that offsets only the last axis of a rank-3 block.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` block cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A load through the unit-stride rectangle of sizes `[n0, n1, m]` at offsets `[0, 0, o]` of an `[n0, n1, n2]` block
    reads, at `(a, b, j)`, the block at `(a, b, o + j)`. -/
theorem ld_last3_apply {Val : EltTy → Type} {e : EltTy} {n0 n1 n2 m : ℕ} (o : ℕ) (X : (⟨3, ![n0, n1, n2]⟩ : Shape).Idx → Val e)
    (inb : ∀ a, (![0, 0, o] : Fin 3 → ℕ) a + (![n0, n1, m] : Fin 3 → ℕ) a ≤ (⟨3, ![n0, n1, n2]⟩ : Shape).size a)
    (a : Fin n0) (b : Fin n1) (j : Fin m) (k : Fin n2) (hk : k.val = o + j.val) :
    View.ld X (Rect.unit (s := ⟨3, ![n0, n1, n2]⟩) ![0, 0, o] ![n0, n1, m] inb) (ix3 a b j) = X (ix3 a b k) := by
  show X _ = X _
  refine congrArg X (funext fun ax => Fin.ext ?_)
  match ax with
  | ⟨0, _⟩ => show 0 + 1 * a.val = a.val; omega
  | ⟨1, _⟩ => show 0 + 1 * b.val = b.val; omega
  | ⟨2, _⟩ => show o + 1 * j.val = k.val; omega

end Idealize.ShloMosaic.Keepdims
-- ==== Proof.PayIdealA.lean ====
/-
  The kernel body's arithmetic read at an index, on the extended reals: the payloads that are left unchanged, constant
  or only re-shaped, and the block of squared distances between 512 points of the first cloud and the 4096 points of
  the second, in the expanded arrangement `-2 x·y + |y|^2 + |x|^2`.
-/
import proofs.«159343_g75617194213799_fold_wed_c4_881_5_alg».proof.Proof.Gen.KernelIdeal.Skeleton
import proofs.«159343_g75617194213799_fold_wed_c4_881_5_alg».proof.Proof.Spec
import proofs.«159343_g75617194213799_fold_wed_c4_881_5_alg».proof.Proof.SpecConst
import proofs.«159343_g75617194213799_fold_wed_c4_881_5_alg».proof.Proof.LibMinFold
import proofs.«159343_g75617194213799_fold_wed_c4_881_5_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Idealize.ShloMosaic.Keepdims Cert.KernelIdeal Cert.KernelIdeal.Gen Cert.Chamfer
open scoped BigOperators

/-! ## The unchanged, the constant, and the re-shaped payloads -/

/-- A cast to the same shape leaves the accumulator's block as it is. -/
theorem pay9 (v40 : Vec Ideal S1x1 .f32) : k0_pay9 v40 = v40 := by
  unfold k0_pay9
  exact shapeCast_self _ _

/-- The accumulator's first value is zero. -/
theorem pay6 : k0_pay6 (F := Ideal) (ix2 (0 : Fin 1) (0 : Fin 1)) = 0 := by
  unfold k0_pay6
  show Ideal.ofBits .f32 0x00000000#32 = 0
  exact ofBits_zero

/-- The column minima stored at the first block are the block's column minima. -/
theorem pay3 (v37 : FVec Ideal S512x4096 .f32) : k0_pay3 v37 = k0_pay2 v37 := by
  unfold k0_pay3
  exact shapeCast_self _ _

/-- At a later block the stored column minima are the running ones met with the block's. -/
theorem pay4 (v37 : FVec Ideal S512x4096 .f32) (v62 : Vec Ideal S1x4096 .f32) (j : Fin 4096) :
    k0_pay4 v37 v62 (ix2 (0 : Fin 1) j) = min (v62 (ix2 0 j)) (k0_pay2 v37 (ix2 0 j)) := by
  unfold k0_pay4
  rw [shapeCast_self]
  rfl

/-! ## The block of squared distances -/

section Pieces
variable (A : FVec Ideal S512x3 .f32) (B : FVec Ideal S3x4096 .f32)

/-- Column `k` of a 512 × 3 matrix, broadcast along the rows of the block, reads the matrix at `(r, k)`. -/
theorem col_apply (o : Nat) (h : S512x3.Slices ![0, o] S512x1) (hb : S512x1.Broadcasts S512x4096) (r : Fin 512)
    (j : Fin 4096) (k : Fin 3) (hk : k.val = o) :
    broadcastTo S512x4096 (extractStridedSlice S512x1 ![0, o] A h) hb (ix2 r j) = A (ix2 r k) :=
  (broadcastTo_a1_ab_apply _ hb r j).trans (slice2_axis1_apply o A h r (0 : Fin 1) k (by simp [hk]))

/-- Row `k` of a 3 × 4096 matrix, broadcast along the columns of the block, reads the matrix at `(k, j)`. -/
theorem row_apply (o : Nat) (h : S3x4096.Slices ![o, 0] S1x4096) (hb : S1x4096.Broadcasts S512x4096) (r : Fin 512)
    (j : Fin 4096) (k : Fin 3) (hk : k.val = o) :
    broadcastTo S512x4096 (extractStridedSlice S1x4096 ![o, 0] B h) hb (ix2 r j) = B (ix2 k j) :=
  (broadcastTo_1b_ab_apply _ hb r j).trans (slice2_axis0_apply o B h (0 : Fin 1) j k (by simp [hk]))

/-- The sum down the three rows, kept as one row and broadcast over the block, reads `∑ k, B (k, j)`. -/
theorem sumRows_apply (hφ : FKind.Formats .f32) (hacc : (0x00000000#32 : BitVec 32) = FKind.add.neutral .f32 hφ)
    (hb : S1x4096.Broadcasts S512x4096) (r : Fin 512) (j : Fin 4096) :
    broadcastTo S512x4096
        (shapeCast S1x4096 (multiReduction .add [0] S4096 B 0x00000000#32 reduces_S3x4096_S4096 hφ hacc)
          shapeCasts_S4096_S1x4096) hb (ix2 r j)
      = ∑ k : Fin 3, B (ix2 k j) := by
  refine (broadcastTo_1b_ab_apply _ hb r j).trans ?_
  refine (shapeCast_a_1a_apply _ _ (0 : Fin 1) j).trans ?_
  refine (Ideal.multiReduction_add_single B _ reduces_S3x4096_S4096 hφ hacc (ix1 j)).trans ?_
  show ∑ k : Fin 3, B (reduces_S3x4096_S4096.lift (ix1 j) k) = _
  refine Finset.sum_congr rfl fun k _ => congrArg B ?_
  funext a
  match a with
  | ⟨0, _⟩ => exact Fin.ext rfl
  | ⟨1, _⟩ => exact Fin.ext rfl

/-- The sum along the three columns, kept as one column and broadcast over the block, reads `∑ k, A (r, k)`. -/
theorem sumCols_apply (hφ : FKind.Formats .f32) (hacc : (0x00000000#32 : BitVec 32) = FKind.add.neutral .f32 hφ)
    (hb : S512x1.Broadcasts S512x4096) (r : Fin 512) (j : Fin 4096) :
    broadcastTo S512x4096
        (shapeCast S512x1 (multiReduction .add [1] S512 A 0x00000000#32 reduces_S512x3_S512 hφ hacc)
          shapeCasts_S512_S512x1) hb (ix2 r j)
      = ∑ k : Fin 3, A (ix2 r k) := by
  refine (broadcastTo_a1_ab_apply _ hb r j).trans ?_
  refine (shapeCast_a_a1_apply _ _ r (0 : Fin 1)).trans ?_
  refine (Ideal.multiReduction_add_single A _ reduces_S512x3_S512 hφ hacc (ix1 r)).trans ?_
  show ∑ k : Fin 3, A (reduces_S512x3_S512.lift (ix1 r) k) = _
  refine Finset.sum_congr rfl fun k _ => congrArg A ?_
  funext a
  match a with
  | ⟨0, _⟩ => exact Fin.ext rfl
  | ⟨1, _⟩ => exact Fin.ext rfl

end Pieces

/-- The block's entry at row `r` and column `j`: the cross term coordinate by coordinate, then the squared norm of the
    column's point, then of the row's. -/
theorem pay7 (x0 : Vec Ideal S1x512x3 .f32) (x1 : Vec Ideal S1x3x4096 .f32) (r : Fin 512) (j : Fin 4096) :
    k0_pay7 x0 x1 (ix2 r j)
      = ((((x0 (ix3 0 r 0) * c2) * x1 (ix3 0 0 j) + (x0 (ix3 0 r 1) * c2) * x1 (ix3 0 1 j))
            + (x0 (ix3 0 r 2) * c2) * x1 (ix3 0 2 j))
          + ∑ k : Fin 3, x1 (ix3 0 k j) * x1 (ix3 0 k j))
        + ∑ k : Fin 3, x0 (ix3 0 r k) * x0 (ix3 0 r k) := by
  have hA : ∀ k : Fin 3, shapeCast S512x3 x0 shapeCasts_S1x512x3_S512x3 (ix2 r k) = x0 (ix3 0 r k) :=
    fun k => shapeCast_1ab_ab_apply x0 _ r k
  have hB : ∀ k : Fin 3, shapeCast S3x4096 x1 shapeCasts_S1x3x4096_S3x4096 (ix2 k j) = x1 (ix3 0 k j) :=
    fun k => shapeCast_1ab_ab_apply x1 _ k j
  have hc : FloatOps.ofBits (F := Ideal) .f32 0xC0000000#32 = c2 := ofBits_c2
  have hX : ∀ (k : Fin 3) (o : Nat) (h : S512x3.Slices ![0, o] S512x1) (_ : k.val = o),
      broadcastTo S512x4096 (extractStridedSlice S512x1 ![0, o]
          (mulf (shapeCast S512x3 x0 shapeCasts_S1x512x3_S512x3) (broadcast S512x3 (FloatOps.ofBits (F := Ideal) .f32 0xC0000000#32))) h)
        broadcasts_S512x1_S512x4096 (ix2 r j) = x0 (ix3 0 r k) * c2 := fun k o h hk =>
    (col_apply _ o h _ r j k hk).trans (by rw [mulf_apply, hA, broadcast_apply, hc])
  have hY : ∀ (k : Fin 3) (o : Nat) (h : S3x4096.Slices ![o, 0] S1x4096) (_ : k.val = o),
      broadcastTo S512x4096 (extractStridedSlice S1x4096 ![o, 0] (shapeCast S3x4096 x1 shapeCasts_S1x3x4096_S3x4096) h)
        broadcasts_S1x4096_S512x4096 (ix2 r j) = x1 (ix3 0 k j) := fun k o h hk =>
    (row_apply _ o h _ r j k hk).trans (hB k)
  unfold k0_pay7
  simp only [addf_apply, mulf_apply]
  refine congrArg₂ (· + ·) (congrArg₂ (· + ·) (congrArg₂ (· + ·) (congrArg₂ (· + ·) ?_ ?_) ?_) ?_) ?_
  · exact congrArg₂ (· * ·) (hX 0 0 _ rfl) (hY 0 0 _ rfl)
  · exact congrArg₂ (· * ·) (hX 1 1 _ rfl) (hY 1 1 _ rfl)
  · exact congrArg₂ (· * ·) (hX 2 2 _ rfl) (hY 2 2 _ rfl)
  · refine (sumRows_apply _ _ _ _ r j).trans (Finset.sum_congr rfl fun k _ => ?_)
    rw [mulf_apply, hB]
  · refine (sumCols_apply _ _ _ _ r j).trans (Finset.sum_congr rfl fun k _ => ?_)
    rw [mulf_apply, hA]

end Cert.KernelIdeal.Pay

end
-- ==== Proof.PayIdealB.lean ====
/-
  The kernel body's minima read at an index, on the extended reals: a minimum reduction over one axis from `⊤` is the
  infimum over that axis, so the block's row minima are the nearest squared distances of its 512 points to the second
  cloud, and its column minima the nearest squared distances within the block to each point of the second cloud.
-/
import proofs.«159343_g75617194213799_fold_wed_c4_881_5_alg».proof.Proof.Gen.KernelIdeal.Skeleton
import proofs.«159343_g75617194213799_fold_wed_c4_881_5_alg».proof.Proof.Spec
import proofs.«159343_g75617194213799_fold_wed_c4_881_5_alg».proof.Proof.SpecConst
import proofs.«159343_g75617194213799_fold_wed_c4_881_5_alg».proof.Proof.LibMinFold
import proofs.«159343_g75617194213799_fold_wed_c4_881_5_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Idealize.ShloMosaic.Keepdims Cert.KernelIdeal Cert.KernelIdeal.Gen Cert.Chamfer
open scoped BigOperators

/-! ## A minimum reduction over one axis -/

/-- A float `minimumf` reduction over one axis, read at `Ideal`: the fold of `min` from the accumulator's value over that
    axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

section Minima
variable (V : FVec Ideal S512x4096 .f32)

/-- The minimum along a row of the block, from `⊤`, kept as a one-column matrix: the infimum of the row. -/
theorem rowMin_apply (hφ : FKind.Formats .f32) (hacc : (0x7F800000#32 : BitVec 32) = FKind.minimumf.neutral .f32 hφ)
    (r : Fin 512) :
    shapeCast S512x1 (multiReduction .minimumf [1] S512 V 0x7F800000#32 reduces_S512x4096_S512 hφ hacc)
        shapeCasts_S512_S512x1 (ix2 r (0 : Fin 1))
      = ⨅ j : Fin 4096, V (ix2 r j) := by
  refine (shapeCast_a_a1_apply _ _ r (0 : Fin 1)).trans ?_
  refine (multiReduction_minimumf_single V _ reduces_S512x4096_S512 hφ hacc (ix1 r)).trans ?_
  show (Finset.univ : Finset (Fin 4096)).fold min (Ideal.ofBits .f32 0x7F800000#32)
      (fun j => V (reduces_S512x4096_S512.lift (ix1 r) j)) = _
  rw [ofBits_top]
  refine (MinFold.fold_min_top_univ (ι := Fin 4096) fun j => V (reduces_S512x4096_S512.lift (ix1 r) j)).trans ?_
  refine iInf_congr fun j => congrArg V ?_
  funext a
  match a with
  | ⟨0, _⟩ => exact Fin.ext rfl
  | ⟨1, _⟩ => exact Fin.ext rfl

/-- The minimum down a column of the block, from `⊤`, kept as a one-row matrix: the infimum of the column. -/
theorem colMin_apply (hφ : FKind.Formats .f32) (hacc : (0x7F800000#32 : BitVec 32) = FKind.minimumf.neutral .f32 hφ)
    (j : Fin 4096) :
    shapeCast S1x4096 (multiReduction .minimumf [0] S4096 V 0x7F800000#32 reduces_S512x4096_S4096 hφ hacc)
        shapeCasts_S4096_S1x4096 (ix2 (0 : Fin 1) j)
      = ⨅ r : Fin 512, V (ix2 r j) := by
  refine (shapeCast_a_1a_apply _ _ (0 : Fin 1) j).trans ?_
  refine (multiReduction_minimumf_single V _ reduces_S512x4096_S4096 hφ hacc (ix1 j)).trans ?_
  show (Finset.univ : Finset (Fin 512)).fold min (Ideal.ofBits .f32 0x7F800000#32)
      (fun r => V (reduces_S512x4096_S4096.lift (ix1 j) r)) = _
  rw [ofBits_top]
  refine (MinFold.fold_min_top_univ (ι := Fin 512) fun r => V (reduces_S512x4096_S4096.lift (ix1 j) r)).trans ?_
  refine iInf_congr fun r => congrArg V ?_
  funext a
  match a with
  | ⟨0, _⟩ => exact Fin.ext rfl
  | ⟨1, _⟩ => exact Fin.ext rfl

end Minima

/-- Row `r` of the block's row minima: the nearest squared distance from the row's point to the second cloud. -/
theorem pay8 (x0 : Vec Ideal S1x512x3 .f32) (x1 : Vec Ideal S1x3x4096 .f32) (r : Fin 512) :
    k0_pay8 x0 x1 (ix2 r (0 : Fin 1)) = ⨅ j : Fin 4096, k0_pay7 x0 x1 (ix2 r j) := by
  unfold k0_pay8
  exact rowMin_apply (k0_pay7 x0 x1) _ _ r

/-- Column `j` of the block's column minima: the nearest squared distance within the block to the column's point. -/
theorem pay2 (v37 : FVec Ideal S512x4096 .f32) (j : Fin 4096) :
    k0_pay2 v37 (ix2 (0 : Fin 1) j) = ⨅ r : Fin 512, v37 (ix2 r j) := by
  unfold k0_pay2
  exact colMin_apply v37 _ _ j

end Cert.KernelIdeal.Pay

end
-- ==== Proof.PayIdealC.lean ====
/-
  The kernel body's scaled sums read at an index, on the extended reals: a sum reduction of a one-column or one-row
  block into a single element is the sum over the column's or the row's coordinates, and the accumulator receives it
  multiplied by 1/16384.
-/
import proofs.«159343_g75617194213799_fold_wed_c4_881_5_alg».proof.Proof.Gen.KernelIdeal.Skeleton
import proofs.«159343_g75617194213799_fold_wed_c4_881_5_alg».proof.Proof.Spec
import proofs.«159343_g75617194213799_fold_wed_c4_881_5_alg».proof.Proof.SpecConst
import proofs.«159343_g75617194213799_fold_wed_c4_881_5_alg».proof.Proof.LibMinFold
import proofs.«159343_g75617194213799_fold_wed_c4_881_5_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Idealize.ShloMosaic.Keepdims Cert.KernelIdeal Cert.KernelIdeal.Gen Cert.Chamfer
open scoped BigOperators

/-! ## The scaled sums added to the accumulator -/

/-- The indices of a `1 × n × 1` array are the coordinates on its middle axis. -/
def idxEquiv_1n1 (n : Nat) : Fin n ≃ (⟨3, ![1, n, 1]⟩ : Shape).Idx where
  toFun r := ix3 (0 : Fin 1) r (0 : Fin 1)
  invFun i := i 1
  left_inv _ := rfl
  right_inv i := by
    funext a
    match a with
    | ⟨0, _⟩ => exact Fin.ext (by have : (i 0).val < 1 := (i 0).isLt; show 0 = (i 0).val; omega)
    | ⟨1, _⟩ => rfl
    | ⟨2, _⟩ => exact Fin.ext (by have : (i 2).val < 1 := (i 2).isLt; show 0 = (i 2).val; omega)

/-- The indices of a `1 × 1 × n` array are the coordinates on its last axis. -/
def idxEquiv_11n (n : Nat) : Fin n ≃ (⟨3, ![1, 1, n]⟩ : Shape).Idx where
  toFun j := ix3 (0 : Fin 1) (0 : Fin 1) j
  invFun i := i 2
  left_inv _ := rfl
  right_inv i := by
    funext a
    match a with
    | ⟨0, _⟩ => exact Fin.ext (by have : (i 0).val < 1 := (i 0).isLt; show 0 = (i 0).val; omega)
    | ⟨1, _⟩ => exact Fin.ext (by have : (i 1).val < 1 := (i 1).isLt; show 0 = (i 1).val; omega)
    | ⟨2, _⟩ => rfl

/-- A sum reduction into the one-element shape, re-shaped and read at its one element: the sum over every index of
    the source. -/
theorem total_apply {s : Shape} {axes : List (Fin s.rank)} (W : FVec Ideal s .f32) (h : s.Reduces axes S1)
    (hφ : FKind.Formats .f32) (hacc : (0x00000000#32 : BitVec 32) = FKind.add.neutral .f32 hφ) :
    extractAt ![0, 0, 0] (shapeCast S1x1x1 (multiReduction .add axes S1 W 0x00000000#32 h hφ hacc) shapeCasts_S1_S1x1x1)
        inpos_S1x1x1_p0_0_0
      = ∑ i : s.Idx, W i := by
  unfold extractAt shapeCast
  exact Ideal.multiReduction_add_total W _ h (by decide) hφ hacc _

/-- The accumulator after a block: what it held plus the sum of the block's 512 row minima, scaled. -/
theorem pay1 (v39 : FVec Ideal S512x1 .f32) (v41 : FVec Ideal S1x1 .f32) :
    k0_pay1 v39 v41 (ix2 (0 : Fin 1) (0 : Fin 1)) = v41 (ix2 0 0) + (∑ r : Fin 512, v39 (ix2 r 0)) * κ := by
  unfold k0_pay1
  simp only [addf_apply, mulf_apply, broadcast_apply]
  refine congrArg₂ (· + ·) rfl (congrArg₂ (· * ·) ?_ ofBits_kappa)
  refine (total_apply _ _ _ _).trans ?_
  refine ((idxEquiv_1n1 512).sum_comp _).symm.trans ?_
  refine Finset.sum_congr rfl fun r _ => ?_
  exact shapeCast_ab_1ab_apply v39 _ 0 r 0

/-- The accumulator after a batch's last block: what it held plus the sum of the 4096 column minima, scaled. -/
theorem pay5 (v62 : Vec Ideal S1x1 .f32) (v64 : Vec Ideal S1x4096 .f32) :
    k0_pay5 v62 v64 (ix2 (0 : Fin 1) (0 : Fin 1)) = v62 (ix2 0 0) + (∑ j : Fin 4096, v64 (ix2 0 j)) * κ := by
  unfold k0_pay5
  simp only [addf_apply, mulf_apply, broadcast_apply]
  refine congrArg₂ (· + ·) (congrFun (shapeCast_self v62 _) _) (congrArg₂ (· * ·) ?_ ofBits_kappa)
  refine (total_apply _ _ _ _).trans ?_
  refine ((idxEquiv_11n 4096).sum_comp _).symm.trans ?_
  refine Finset.sum_congr rfl fun j _ => ?_
  exact shapeCast_ab_1ab_apply v64 _ 0 0 j

end Cert.KernelIdeal.Pay

end
-- ==== Proof.KernPoint.lean ====
/-
  What each kind of point leaves, read at an entry, on the extended reals.

  Write `d r j` for the point's tile of distances: row `r` of the block against column `j`. Every point adds to the
  loss so far (zero at the first point) the scaled sum over its rows of the row's nearest distance; a last block then
  adds the scaled sum over the columns of the folded column minima. The scratch ends at the block's column minima
  (first block of a batch) or at their minimum with the minima so far (later blocks).
-/
import proofs.«159343_g75617194213799_fold_wed_c4_881_5_alg».proof.Proof.BodyKIPieces
import proofs.«159343_g75617194213799_fold_wed_c4_881_5_alg».proof.Proof.PayIdealA
import proofs.«159343_g75617194213799_fold_wed_c4_881_5_alg».proof.Proof.PayIdealB
import proofs.«159343_g75617194213799_fold_wed_c4_881_5_alg».proof.Proof.PayIdealC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Chamfer
open scoped BigOperators

/-- The scaled sum over the rows of a block of each row's nearest distance. -/
abbrev rowTerm (x0 : Vec Ideal S1x512x3 .f32) (x1 : Vec Ideal S1x3x4096 .f32) : EReal :=
  (∑ r : Fin 512, ⨅ j : Fin 4096, k0_pay7 x0 x1 (ix2 r j)) * κ

/-- A block's column minima. -/
abbrev colTerm (x0 : Vec Ideal S1x512x3 .f32) (x1 : Vec Ideal S1x3x4096 .f32) (j : Fin 4096) : EReal :=
  ⨅ r : Fin 512, k0_pay7 x0 x1 (ix2 r j)

theorem pay1_row (x0 : Vec Ideal S1x512x3 .f32) (x1 : Vec Ideal S1x3x4096 .f32) (v41 : Vec Ideal S1x1 .f32) :
    k0_pay1 (k0_pay8 x0 x1) v41 (ix2 (0 : Fin 1) (0 : Fin 1)) = v41 (ix2 0 0) + rowTerm x0 x1 := by
  refine (Pay.pay1 (k0_pay8 x0 x1) v41).trans ?_
  simp only [Pay.pay8]

theorem val_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec Ideal S1x512x3 .f32) (x1 : Vec Ideal S1x3x4096 .f32) :
    out_A c i arg2 harg2 arg3 harg3 arg4 harg4 arg5 harg5 hc1 hc2 hc3 hc4 x0 x1 (ix2 (0 : Fin 1) (0 : Fin 1)) = 0 + rowTerm x0 x1 := by
  rw [out_A_eq, pay1_row, Pay.pay9, Pay.pay6]

theorem val_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec Ideal S1x512x3 .f32) (x1 : Vec Ideal S1x3x4096 .f32) (xo : Vec Ideal S1x1 .f32) :
    out_B c i arg2 harg2 arg3 harg3 arg4 harg4 arg5 harg5 hc1 hc2 hc3 hc4 x0 x1 xo (ix2 (0 : Fin 1) (0 : Fin 1)) = xo (ix2 0 0) + rowTerm x0 x1 := by
  rw [out_B_eq, pay1_row, Pay.pay9]

theorem val_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec Ideal S1x512x3 .f32) (x1 : Vec Ideal S1x3x4096 .f32) (xo : Vec Ideal S1x1 .f32) (xs : Vec Ideal S1x4096 .f32) :
    out_C c i arg2 harg2 arg3 harg3 arg4 harg4 arg5 harg5 hc1 hc2 hc3 hc4 x0 x1 xo xs (ix2 (0 : Fin 1) (0 : Fin 1)) = xo (ix2 0 0) + rowTerm x0 x1 := by
  rw [out_C_eq, pay1_row, Pay.pay9]

theorem sval_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : cond1 i) (hc2 : cond2 i) (hc3 : ¬cond3 i) (hc4 : ¬cond4 i)
    (x0 : Vec Ideal S1x512x3 .f32) (x1 : Vec Ideal S1x3x4096 .f32) (j : Fin 4096) :
    sout_A c i arg2 harg2 arg3 harg3 arg4 harg4 arg5 harg5 hc1 hc2 hc3 hc4 x0 x1 (ix2 (0 : Fin 1) j) = colTerm x0 x1 j := by
  rw [sout_A_eq, Pay.pay3, Pay.pay2]

theorem sval_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : cond2 i) (hc3 : ¬cond3 i) (hc4 : ¬cond4 i)
    (x0 : Vec Ideal S1x512x3 .f32) (x1 : Vec Ideal S1x3x4096 .f32) (xo : Vec Ideal S1x1 .f32) (j : Fin 4096) :
    sout_B c i arg2 harg2 arg3 harg3 arg4 harg4 arg5 harg5 hc1 hc2 hc3 hc4 x0 x1 xo (ix2 (0 : Fin 1) j) = colTerm x0 x1 j := by
  rw [sout_B_eq, Pay.pay3, Pay.pay2]

theorem sval_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : ¬cond4 i)
    (x0 : Vec Ideal S1x512x3 .f32) (x1 : Vec Ideal S1x3x4096 .f32) (xo : Vec Ideal S1x1 .f32) (xs : Vec Ideal S1x4096 .f32) (j : Fin 4096) :
    sout_C c i arg2 harg2 arg3 harg3 arg4 harg4 arg5 harg5 hc1 hc2 hc3 hc4 x0 x1 xo xs (ix2 (0 : Fin 1) j) = min (xs (ix2 0 j)) (colTerm x0 x1 j) := by
  rw [sout_C_eq, Pay.pay4, Pay.pay2]

theorem sval_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec Ideal S1x512x3 .f32) (x1 : Vec Ideal S1x3x4096 .f32) (xo : Vec Ideal S1x1 .f32) (xs : Vec Ideal S1x4096 .f32) (j : Fin 4096) :
    sout_D c i arg2 harg2 arg3 harg3 arg4 harg4 arg5 harg5 hc1 hc2 hc3 hc4 x0 x1 xo xs (ix2 (0 : Fin 1) j) = min (xs (ix2 0 j)) (colTerm x0 x1 j) := by
  rw [sout_D_eq, Pay.pay4, Pay.pay2]

theorem val_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hc1 : ¬cond1 i) (hc2 : ¬cond2 i) (hc3 : cond3 i) (hc4 : cond4 i)
    (x0 : Vec Ideal S1x512x3 .f32) (x1 : Vec Ideal S1x3x4096 .f32) (xo : Vec Ideal S1x1 .f32) (xs : Vec Ideal S1x4096 .f32) :
    out_D c i arg2 harg2 arg3 harg3 arg4 harg4 arg5 harg5 hc1 hc2 hc3 hc4 x0 x1 xo xs (ix2 (0 : Fin 1) (0 : Fin 1))
      = (xo (ix2 0 0) + rowTerm x0 x1) + (∑ j : Fin 4096, min (xs (ix2 0 j)) (colTerm x0 x1 j)) * κ := by
  rw [out_D_eq]
  refine (Pay.pay5 _ _).trans ?_
  rw [pay1_row, Pay.pay9]
  simp only [Pay.pay4, Pay.pay2]

end Cert.KernelIdeal.Body

end
-- ==== Proof.CloudOf.lean ====
/-
  A rank-3 array of extended reals of extents 4 x 4096 x 3, read as a batch of point clouds:
  the entry at (batch, point, coordinate) is the array's entry at the index with those coordinates.
-/
import Idealize.ShloMosaic.Lib.ValueIdx
import proofs.«159343_g75617194213799_fold_wed_c4_881_5_alg».proof.Proof.Spec

noncomputable section

namespace Cert.Chamfer

open Idealize.ShloMosaic Idealize.ShloMosaic.ValueIdx

/-- The point clouds an array of extents 4 x 4096 x 3 holds. -/
def cloud (A : (⟨3, ![4, 4096, 3]⟩ : Shape).Idx → EReal) : Cloud :=
  fun b i k => A (ix3 b i k)

/-- Reading the cloud at (batch, point, coordinate) reads the array at that index. -/
theorem cloud_apply (A : (⟨3, ![4, 4096, 3]⟩ : Shape).Idx → EReal) (b : Fin 4) (i : Fin 4096) (k : Fin 3) :
    cloud A b i k = A (ix3 b i k) := rfl

/-- Reading the array at an index reads the cloud at the index's coordinates. -/
theorem apply_eq_cloud (A : (⟨3, ![4, 4096, 3]⟩ : Shape).Idx → EReal) (j : (⟨3, ![4, 4096, 3]⟩ : Shape).Idx) :
    A j = cloud A (j 0) (j 1) (j 2) := by
  exact congrArg A (eq_ix3 j)

end Cert.Chamfer

end
-- ==== Proof.BodyKIArr.lean ====
/-
  Where the kernel's blocks sit in its arrays, and where its result comes from.

  Point `t` of the grid is batch `t / 8`, block `t % 8`. Its first input block is the 512 rows of that block of
  the first cloud's batch; its second input block is the whole batch of the second cloud, transposed (coordinate
  by point) by the line before the region. The loss array is one block, written back once, after the last point:
  it ends at what the last point left; the line after the region reshapes that 1x1 array to the scalar result.
-/
import proofs.«159343_g75617194213799_fold_wed_c4_881_5_alg».proof.Proof.BodyKIPieces
import proofs.«159343_g75617194213799_fold_wed_c4_881_5_alg».proof.Proof.CloudOf
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps over the grid: the first window follows (batch, block), the second the batch, the third
    stays at its one block. -/
theorem idx_facts : ∀ t : Fin cfg0.N, win0_0.index t (0 : Fin 3) = t.val / 8 ∧ win0_0.index t (1 : Fin 3) = t.val % 8
    ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

theorem N32 (t : Fin cfg0.N) : t.val < 32 := lt_of_lt_of_eq t.isLt (show cfg0.N = 32 from N_0)

/-- The batch of a point. -/
def bOf (t : Fin cfg0.N) : Fin 4 := ⟨t.val / 8, by have := N32 t; omega⟩
/-- The block of rows of a point. -/
def cOf (t : Fin cfg0.N) : Fin 8 := ⟨t.val % 8, by omega⟩

/-- The first input block at a point: rows `512·block + r` of the point's batch. -/
theorem iblk0_apply (c : Dev nD) (t : Fin cfg0.N) (r : Fin 512) (k : Fin 3) :
    iblk m c 0 t (ix3 (0 : Fin 1) r k) = V m c main_arg0 (ix3 (bOf t) (Cert.Chamfer.row (cOf t) r) k) := by
  obtain ⟨e0, e1, e2, -⟩ := idx_facts t
  show V m c main_arg0 (((cfg0.win 0).blk t).view.emb (ix3 (0 : Fin 1) r k)) = _
  refine congrArg _ (funext fun a => Fin.ext ?_)
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 3 + 1 * k.val = k.val; omega

/-- The second input block at a point: the point's batch of the transposed array, whole. -/
theorem iblk1_apply (c : Dev nD) (t : Fin cfg0.N) (k : Fin 3) (j : Fin 4096) :
    iblk m c 1 t (ix3 (0 : Fin 1) k j) = V m c main_call0_v0 (ix3 (bOf t) k j) := by
  obtain ⟨-, -, -, e0, e1, e2, -⟩ := idx_facts t
  show V m c main_call0_v0 (((cfg0.win 1).blk t).view.emb (ix3 (0 : Fin 1) k j)) = _
  refine congrArg _ (funext fun a => Fin.ext ?_)
  match a with
  | ⟨0, _⟩ => show win0_1.index t (0 : Fin 3) * 1 + 1 * 0 = t.val / 8; omega
  | ⟨1, _⟩ => show win0_1.index t (1 : Fin 3) * 3 + 1 * k.val = k.val; omega
  | ⟨2, _⟩ => show win0_1.index t (2 : Fin 3) * 4096 + 1 * j.val = j.val; omega

/-- The array the second window stages is the second argument with its last two axes exchanged. -/
theorem V_call0_v0 (c : Dev nD) :
    (V m c main_call0_v0 : S4x3x4096.Idx → Elt F .f32)
      = transpose S4x3x4096 [0, 2, 1] (m ((c : Thread nD τ).loc main_arg1)) transposes_S4x4096x3_S4x3x4096_0_2_1 := by
  show StableHlo.after hostOps0 (fun b => m (c, b)) (Proc.devRef .tc main_call0_v0) = _
  after_results
  rfl

theorem V_call0_v0_apply (c : Dev nD) (b : Fin 4) (k : Fin 3) (j : Fin 4096) :
    V m c main_call0_v0 (ix3 b k j) = m ((c : Thread nD τ).loc main_arg1) (ix3 b j k) := by
  have e := congrFun (V_call0_v0 m c) (ix3 b k j)
  exact e.trans (transpose_ix3_021_apply _ _ b k j)

theorem last_lt : 31 < cfg0.N := by rw [show cfg0.N = 32 from N_0]; omega

theorem mem_blk2 (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_call0_v1).slice (win0_2.rect t)).set ↔ _
  rw [View.set_slice_whole, Rect.mem_set_unit]
  exact Iff.rfl

/-- The loss array after the run: what the last point left in the loss buffer. -/
theorem final2 (c : Dev nD) : (dats m 0 c).arrAt 2 cfg0.N = (outsAt m c 31 last_lt).1 := by
  refine (dats m 0 c).arrAt_eq_of_cover 2 _ (fun t ht => ?_) (fun i => ⟨⟨31, last_lt⟩, (flush0_2 _).mpr rfl, ?_⟩)
  · have h31 : t.val = 31 := by have := (flush0_2 t).mp ht; have := N32 t; omega
    obtain rfl : t = ⟨31, last_lt⟩ := Fin.ext h31
    obtain ⟨-, -, -, -, -, -, e0, e1⟩ := idx_facts ⟨31, last_lt⟩
    show (cfg0.win 2).cut (grid0.coords ⟨31, last_lt⟩) ((dats m 0 c).after 2 ⟨31, last_lt⟩) = _
    rw [after2]
    funext j
    show (outsAt m c 31 last_lt).1 j = (outsAt m c 31 last_lt).1 (((cfg0.win 2).blk ⟨31, last_lt⟩).view.emb j)
    refine congrArg _ (funext fun a => Fin.ext ?_)
    match a with
    | ⟨0, _⟩ => show (j 0).val = win0_2.index ⟨31, last_lt⟩ (0 : Fin 2) * 1 + 1 * (j 0).val; omega
    | ⟨1, _⟩ => show (j 1).val = win0_2.index ⟨31, last_lt⟩ (1 : Fin 2) * 1 + 1 * (j 1).val; omega
  · rw [mem_blk2]
    obtain ⟨-, -, -, -, -, -, e0, e1⟩ := idx_facts ⟨31, last_lt⟩
    intro a
    have h0 : (i 0).val < 1 := (i 0).isLt
    have h1 : (i 1).val < 1 := (i 1).isLt
    match a with
    | ⟨0, _⟩ => show win0_2.index ⟨31, last_lt⟩ (0 : Fin 2) * 1 ≤ (i 0).val ∧ (i 0).val < win0_2.index ⟨31, last_lt⟩ (0 : Fin 2) * 1 + 1; omega
    | ⟨1, _⟩ => show win0_2.index ⟨31, last_lt⟩ (1 : Fin 2) * 1 ≤ (i 1).val ∧ (i 1).val < win0_2.index ⟨31, last_lt⟩ (1 : Fin 2) * 1 + 1; omega

/-- The program's result after the run: the one entry of what the last point left in the loss buffer. -/
theorem result_of_post (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_v0) = fun _ => (outsAt m c 31 last_lt).1 (ix2 (0 : Fin 1) (0 : Fin 1)) := by
  rw [(h c).2 main_v0 (Pipeline.mem_restRefs_of main_v0 (by decide) (by decide))]
  unfold Pipeline.afterTail₀
  show StableHlo.after hostOps1 _ (Proc.devRef .tc main_v0) = _
  after_results
  funext i
  have hw : Pipeline.withArrays (cfgs 0).spec c (V0 m c) (fun w => (dats m 0 c).arrAt w (cfgs 0).N) (Proc.devRef .tc main_call0_v1)
      = (outsAt m c 31 last_lt).1 :=
    (Pipeline.withArrays_arr spec0 launch0.win.arr_inj c _ _ 2).trans (final2 m c)
  show shapeCast S_ (Pipeline.withArrays (cfgs 0).spec c (V0 m c) (fun w => (dats m 0 c).arrAt w (cfgs 0).N) (Proc.devRef .tc main_call0_v1)) shapeCasts_S1x1_S_ i = _
  rw [hw]
  refine shapeCast_apply _ _ i (ix2 (0 : Fin 1) (0 : Fin 1)) ?_
  have a1 : (S1x1.rowMajor (ix2 (0 : Fin 1) (0 : Fin 1))).val < 1 := (S1x1.rowMajor (ix2 (0 : Fin 1) (0 : Fin 1))).isLt
  have a0 : (S_.rowMajor i).val < 1 := (S_.rowMajor i).isLt
  show (S1x1.rowMajor (ix2 (0 : Fin 1) (0 : Fin 1))).val = (S_.rowMajor i).val
  omega

end Cert.KernelIdeal.Body

end
-- ==== Proof.KernFold.lean ====
/-
  The loss accumulated point by point, and the column minima folded block by block.

  The grid's 32 points are numbered `n = 8·batch + block`. After point `n` the loss accumulator holds the
  finished batches' parts, the row parts of the blocks of the current batch up to the current one, and, at a last
  block, the current batch's column part (`accF`); each point adds its row part, a last block also its batch's
  column part; after point 31 that is `lossK`. The column minima of a batch are folded block by block
  (`colMinUpTo`): the first block's minima, then the minimum with each later block's; after the eighth block
  they are the minima over all 4096 rows.
-/
import proofs.«159343_g75617194213799_fold_wed_c4_881_5_alg».proof.Proof.Spec

noncomputable section

namespace Cert.Chamfer

open scoped BigOperators

/-- A number as a batch (mod 4) and as a block (mod 8). -/
def fin4 (n : ℕ) : Fin 4 := ⟨n % 4, Nat.mod_lt _ (by norm_num)⟩
def fin8 (n : ℕ) : Fin 8 := ⟨n % 8, Nat.mod_lt _ (by norm_num)⟩

theorem fin4_val_of_lt {n : ℕ} (h : n < 4) : (fin4 n).val = n := Nat.mod_eq_of_lt h
theorem fin8_val_of_lt {n : ℕ} (h : n < 8) : (fin8 n).val = n := Nat.mod_eq_of_lt h
theorem fin4_val (b : Fin 4) : fin4 b.val = b := Fin.ext (Nat.mod_eq_of_lt b.isLt)
theorem fin8_val (c : Fin 8) : fin8 c.val = c := Fin.ext (Nat.mod_eq_of_lt c.isLt)

variable (X Y : Cloud)

/-- The row part of block `c` of batch `b`, and the column part of batch `b`, by numbers. -/
def rowN (b c : ℕ) : EReal := rowPart X Y (fin4 b) (fin8 c)
def colN (b : ℕ) : EReal := colPart X Y (fin4 b)
/-- A whole batch's part. -/
def batchN (b : ℕ) : EReal := (∑ c ∈ Finset.range 8, rowN X Y b c) + colN X Y b

/-- The loss accumulator after point `n`. -/
def accF (n : ℕ) : EReal :=
  (∑ b ∈ Finset.range (n / 8), batchN X Y b) + (∑ c ∈ Finset.range (n % 8 + 1), rowN X Y (n / 8) c)
    + (if n % 8 = 7 then colN X Y (n / 8) else 0)

theorem accF_zero : accF X Y 0 = 0 + rowN X Y 0 0 := by
  simp [accF]

/-- A point that opens a new batch adds its row part to the finished batches. -/
theorem accF_succ_first (n : ℕ) (h : (n + 1) % 8 = 0) :
    accF X Y (n + 1) = accF X Y n + rowN X Y ((n + 1) / 8) ((n + 1) % 8) := by
  have h7 : n % 8 = 7 := by omega
  have hd : (n + 1) / 8 = n / 8 + 1 := by omega
  unfold accF
  rw [h, h7, hd, if_pos rfl, if_neg (by norm_num), Finset.sum_range_succ (fun b => batchN X Y b) (n / 8)]
  simp only [zero_add, Finset.sum_range_one, add_zero, batchN, add_assoc, show (7 : ℕ) + 1 = 8 from rfl]

/-- A middle block adds its row part. -/
theorem accF_succ_mid (n : ℕ) (h0 : (n + 1) % 8 ≠ 0) (h7 : (n + 1) % 8 ≠ 7) :
    accF X Y (n + 1) = accF X Y n + rowN X Y ((n + 1) / 8) ((n + 1) % 8) := by
  have hm : (n + 1) % 8 = n % 8 + 1 := by omega
  have hd : (n + 1) / 8 = n / 8 := by omega
  have hn7 : n % 8 ≠ 7 := by omega
  unfold accF
  rw [hm, hd, if_neg hn7, if_neg (by omega), Finset.sum_range_succ (fun c => rowN X Y (n / 8) c) (n % 8 + 1)]
  simp only [add_zero, add_assoc]

/-- A last block adds its row part and then its batch's column part. -/
theorem accF_succ_last (n : ℕ) (h7 : (n + 1) % 8 = 7) :
    accF X Y (n + 1) = (accF X Y n + rowN X Y ((n + 1) / 8) ((n + 1) % 8)) + colN X Y ((n + 1) / 8) := by
  have hm : (n + 1) % 8 = n % 8 + 1 := by omega
  have hd : (n + 1) / 8 = n / 8 := by omega
  have hn7 : n % 8 ≠ 7 := by omega
  unfold accF
  rw [hm, hd, if_neg hn7, if_pos (by omega), Finset.sum_range_succ (fun c => rowN X Y (n / 8) c) (n % 8 + 1)]
  simp only [add_zero, add_assoc]

/-- A batch's part, by its number, is the batch's eight row parts and its column part. -/
theorem batchN_val (b : Fin 4) : batchN X Y b.val = (∑ c : Fin 8, rowPart X Y b c) + colPart X Y b := by
  have hr : (∑ c ∈ Finset.range 8, rowN X Y b.val c) = ∑ c : Fin 8, rowPart X Y b c := by
    rw [Finset.sum_range (fun c => rowN X Y b.val c)]
    refine Finset.sum_congr rfl fun c _ => ?_
    show rowPart X Y (fin4 b.val) (fin8 c.val) = rowPart X Y b c
    rw [fin4_val, fin8_val]
  have hc : colN X Y b.val = colPart X Y b := by
    show colPart X Y (fin4 b.val) = colPart X Y b
    rw [fin4_val]
  show (∑ c ∈ Finset.range 8, rowN X Y b.val c) + colN X Y b.val = _
  rw [hr, hc]

/-- After the last point the accumulator holds the whole loss. -/
theorem accF_last : accF X Y 31 = lossK X Y := by
  have e : accF X Y 31 = ∑ b ∈ Finset.range 4, batchN X Y b := by
    have h1 : 31 / 8 = 3 := by norm_num
    have h2 : 31 % 8 = 7 := by norm_num
    unfold accF
    rw [h1, h2, if_pos rfl, Finset.sum_range_succ (fun b => batchN X Y b) 3, add_assoc]
    rfl
  rw [e, Finset.sum_range (fun b => batchN X Y b)]
  exact Finset.sum_congr rfl fun b _ => batchN_val X Y b

/-- The minimum, over the 512 rows of block `k`, of the distance to column `j`. -/
def blockMin (b : Fin 4) (k : ℕ) (j : Fin 4096) : EReal := ⨅ r : Fin 512, distK X Y b (row (fin8 k) r) j

/-- The column minima after the blocks `0 … k` of a batch. -/
def colMinUpTo (b : Fin 4) : ℕ → Fin 4096 → EReal
  | 0 => blockMin X Y b 0
  | k + 1 => fun j => min (colMinUpTo b k j) (blockMin X Y b (k + 1) j)

theorem colMinUpTo_le (b : Fin 4) (j : Fin 4096) : ∀ k k' : ℕ, k' ≤ k → colMinUpTo X Y b k j ≤ blockMin X Y b k' j
  | 0, k', h => by obtain rfl : k' = 0 := Nat.le_zero.mp h; exact le_rfl
  | k + 1, k', h => by
    rcases Nat.lt_or_ge k' (k + 1) with hlt | hge
    · exact (min_le_left _ _).trans (colMinUpTo_le b j k k' (Nat.lt_succ_iff.mp hlt))
    · obtain rfl : k' = k + 1 := le_antisymm h hge
      exact min_le_right _ _

theorem le_colMinUpTo (b : Fin 4) (j : Fin 4096) : ∀ k : ℕ, (⨅ i : Fin 4096, distK X Y b i j) ≤ colMinUpTo X Y b k j
  | 0 => le_iInf fun r => iInf_le _ _
  | k + 1 => le_min (le_colMinUpTo b j k) (le_iInf fun r => iInf_le _ _)

/-- After the eighth block the folded minima are the minima over all rows. -/
theorem colMinUpTo_seven (b : Fin 4) (j : Fin 4096) : colMinUpTo X Y b 7 j = ⨅ i : Fin 4096, distK X Y b i j := by
  refine le_antisymm (le_iInf fun i => ?_) (le_colMinUpTo X Y b j 7)
  have hi : i.val < 4096 := i.isLt
  have hk : i.val / 512 ≤ 7 := by omega
  refine (colMinUpTo_le X Y b j 7 (i.val / 512) hk).trans ?_
  have e : row (fin8 (i.val / 512)) ⟨i.val % 512, Nat.mod_lt _ (by norm_num)⟩ = i := by
    apply Fin.ext
    show 512 * (fin8 (i.val / 512)).val + i.val % 512 = i.val
    rw [fin8_val_of_lt (by omega)]
    omega
  calc blockMin X Y b (i.val / 512) j ≤ distK X Y b (row (fin8 (i.val / 512)) ⟨i.val % 512, Nat.mod_lt _ (by norm_num)⟩) j :=
        iInf_le _ _
    _ = distK X Y b i j := by rw [e]

end Cert.Chamfer

end
-- ==== Proof.KernTile.lean ====
/-
  The kernel's block of distances, read in the clouds' own coordinates.

  At point t of the grid, batch t / 8 and block t % 8, the body forms the 512 x 4096 block of squared distances, in
  the expanded arrangement, between the 512 rows of that block of the first cloud's batch and the 4096 points of
  the second cloud's batch. Its entry at (r, j) is the expanded squared distance between point 512 (t % 8) + r of
  the first cloud and point j of the second. So the block's row minima, summed and scaled, are the block's row
  part of the loss, and its column minima are the block's column minima.
-/
import proofs.«159343_g75617194213799_fold_wed_c4_881_5_alg».proof.Proof.BodyKIArr
import proofs.«159343_g75617194213799_fold_wed_c4_881_5_alg».proof.Proof.PayIdealA
import proofs.«159343_g75617194213799_fold_wed_c4_881_5_alg».proof.Proof.KernFold

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable (m : (ℓ : Loc nD τ sig) → Buf (Elt Ideal) ℓ)

/-- The first argument array of a device, as point clouds. -/
abbrev XC (c : Dev nD) : Cert.Chamfer.Cloud := Cert.Chamfer.cloud (m ((c : Thread nD τ).loc main_arg0))
/-- The second argument array of a device, as point clouds. -/
abbrev YC (c : Dev nD) : Cert.Chamfer.Cloud := Cert.Chamfer.cloud (m ((c : Thread nD τ).loc main_arg1))

/-- The first input block at (r, k) is coordinate k of point 512 (t % 8) + r of batch t / 8 of the first cloud. -/
theorem blk0_cloud (c : Dev nD) (t : Fin cfg0.N) (r : Fin 512) (k : Fin 3) :
    iblk m c 0 t (ix3 (0 : Fin 1) r k) = XC m c (bOf t) (Cert.Chamfer.row (cOf t) r) k :=
  (iblk0_apply m c t r k).trans (congrFun (V_main_arg0 m c) _)

/-- The second input block at (k, j) is coordinate k of point j of batch t / 8 of the second cloud. -/
theorem blk1_cloud (c : Dev nD) (t : Fin cfg0.N) (k : Fin 3) (j : Fin 4096) :
    iblk m c 1 t (ix3 (0 : Fin 1) k j) = YC m c (bOf t) j k :=
  (iblk1_apply m c t k j).trans (V_call0_v0_apply m c (bOf t) k j)

/-- The block of distances at (r, j) is the expanded squared distance between the block's row r and point j. -/
theorem tile_apply (c : Dev nD) (t : Fin cfg0.N) (r : Fin 512) (j : Fin 4096) :
    k0_pay7 (iblk m c 0 t) (iblk m c 1 t) (ix2 r j)
      = Cert.Chamfer.distK (XC m c) (YC m c) (bOf t) (Cert.Chamfer.row (cOf t) r) j := by
  refine (Pay.pay7 (iblk m c 0 t) (iblk m c 1 t) r j).trans ?_
  simp only [blk0_cloud, blk1_cloud]
  rfl

/-- The batch of a point, by its number. -/
theorem bOf_eq (t : Fin cfg0.N) : bOf t = Cert.Chamfer.fin4 (t.val / 8) :=
  Fin.ext (by
    show t.val / 8 = (t.val / 8) % 4
    have := N32 t
    omega)

/-- The block of a point, by its number. -/
theorem cOf_eq (t : Fin cfg0.N) : cOf t = Cert.Chamfer.fin8 (t.val % 8) :=
  Fin.ext (by
    show t.val % 8 = (t.val % 8) % 8
    omega)

/-- The block's row minima, summed and scaled, are the row part of the loss of block t % 8 of batch t / 8. -/
theorem rowSum_eq (c : Dev nD) (t : Fin cfg0.N) :
    (∑ r : Fin 512, ⨅ j : Fin 4096, k0_pay7 (iblk m c 0 t) (iblk m c 1 t) (ix2 r j)) * Cert.Chamfer.κ
      = Cert.Chamfer.rowN (XC m c) (YC m c) (t.val / 8) (t.val % 8) := by
  unfold Cert.Chamfer.rowN Cert.Chamfer.rowPart
  rw [← bOf_eq, ← cOf_eq]
  exact congrArg (· * Cert.Chamfer.κ)
    (Finset.sum_congr rfl fun r _ => iInf_congr fun j => tile_apply m c t r j)

/-- The block's column minima are the minima, over the block's 512 rows, of the distances to each column. -/
theorem blockMin_eq (c : Dev nD) (t : Fin cfg0.N) (j : Fin 4096) :
    (⨅ r : Fin 512, k0_pay7 (iblk m c 0 t) (iblk m c 1 t) (ix2 r j))
      = Cert.Chamfer.blockMin (XC m c) (YC m c) (Cert.Chamfer.fin4 (t.val / 8)) (t.val % 8) j := by
  unfold Cert.Chamfer.blockMin
  rw [← bOf_eq, ← cOf_eq]
  exact iInf_congr fun r => tile_apply m c t r j

end Cert.KernelIdeal.Body

end
-- ==== Proof.KernValue.lean ====
/-
  The value of the chamfer kernel: after the run its result is the loss accumulated batch by batch.

  By induction over the 32 grid points, numbered `n = 8·batch + block`: after point `n` the one entry of the loss
  buffer is `accF n` — the finished batches' parts, the current batch's row parts so far and, at a last block, its
  column part — and the scratch holds at column `j` the minimum over the rows of the blocks `0 … n % 8` of the
  current batch of the distance to `j`. Each step is the point's kind read at an entry, the point's tile being the
  distances of its block of rows to the batch's columns. After point 31 the loss buffer holds the whole loss; it is
  written back to the loss array, which the last line reshapes to the result.
-/
import proofs.«159343_g75617194213799_fold_wed_c4_881_5_alg».proof.Proof.KernPoint
import proofs.«159343_g75617194213799_fold_wed_c4_881_5_alg».proof.Proof.KernTile
import proofs.«159343_g75617194213799_fold_wed_c4_881_5_alg».proof.Proof.KernFold
import proofs.«159343_g75617194213799_fold_wed_c4_881_5_alg».proof.Proof.BodyKIArr

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Chamfer
open scoped BigOperators

variable (m : (ℓ : Loc nD τ sig) → Buf (Elt Ideal) ℓ) (ρ : Dev nD → PrngReg)

/-- After point `n`: the loss so far, and the column minima folded so far. -/
def Inv (c : Dev nD) (n : ℕ) (h : n < cfg0.N) : Prop :=
  (outsAt m c n h).1 (ix2 (0 : Fin 1) (0 : Fin 1)) = accF (XC m c) (YC m c) n
    ∧ ∀ j : Fin 4096, (outsAt m c n h).2 (ix2 (0 : Fin 1) j) = colMinUpTo (XC m c) (YC m c) (fin4 (n / 8)) (n % 8) j

/-- A later block's fold of the column minima. -/
theorem scr_step (c : Dev nD) (n : ℕ) (h : n + 1 < cfg0.N) (hn : n < cfg0.N)
    (ih2 : ∀ j : Fin 4096, (outsAt m c n hn).2 (ix2 (0 : Fin 1) j) = colMinUpTo (XC m c) (YC m c) (fin4 (n / 8)) (n % 8) j)
    (h8 : ¬(n + 1) % 8 = 0) (j : Fin 4096) :
    min ((outsAt m c n hn).2 (ix2 (0 : Fin 1) j)) (colTerm (iblk m c 0 ⟨n + 1, h⟩) (iblk m c 1 ⟨n + 1, h⟩) j)
      = colMinUpTo (XC m c) (YC m c) (fin4 ((n + 1) / 8)) ((n + 1) % 8) j := by
  have hd : (n + 1) / 8 = n / 8 := by omega
  have hm : (n + 1) % 8 = n % 8 + 1 := by omega
  have hb : colTerm (iblk m c 0 ⟨n + 1, h⟩) (iblk m c 1 ⟨n + 1, h⟩) j
      = blockMin (XC m c) (YC m c) (fin4 ((n + 1) / 8)) ((n + 1) % 8) j := blockMin_eq m c ⟨n + 1, h⟩ j
  rw [ih2 j, hb, hd, hm]
  rfl

theorem inv_all (c : Dev nD) : ∀ (n : ℕ) (h : n < cfg0.N), Inv m c n h
  | 0, h => by
    have e : outsAt m c 0 h = _ := outsAt_A m c ⟨0, h⟩ rfl
    have hr : rowTerm (iblk m c 0 ⟨0, h⟩) (iblk m c 1 ⟨0, h⟩) = rowN (XC m c) (YC m c) (0 / 8) (0 % 8) := rowSum_eq m c ⟨0, h⟩
    simp only [Nat.zero_div, Nat.zero_mod] at hr
    unfold Inv
    simp only [Nat.zero_div, Nat.zero_mod]
    refine ⟨?_, fun j => ?_⟩
    · rw [e]; dsimp only
      rw [val_A, hr]
      exact (accF_zero _ _).symm
    · have hb : colTerm (iblk m c 0 ⟨0, h⟩) (iblk m c 1 ⟨0, h⟩) j = blockMin (XC m c) (YC m c) (fin4 (0 / 8)) (0 % 8) j :=
        blockMin_eq m c ⟨0, h⟩ j
      simp only [Nat.zero_div, Nat.zero_mod] at hb
      rw [e]; dsimp only
      rw [sval_A, hb]
      rfl
  | n + 1, h => by
    have hn : n < cfg0.N := Nat.lt_of_succ_lt h
    have ih := inv_all c n hn
    have h32 : n + 1 < 32 := lt_of_lt_of_eq h (show cfg0.N = 32 from N_0)
    have h0 : ¬(⟨n + 1, h⟩ : Fin cfg0.N).val = 0 := Nat.succ_ne_zero n
    have hr : rowTerm (iblk m c 0 ⟨n + 1, h⟩) (iblk m c 1 ⟨n + 1, h⟩) = rowN (XC m c) (YC m c) ((n + 1) / 8) ((n + 1) % 8) :=
      rowSum_eq m c ⟨n + 1, h⟩
    by_cases h8 : (n + 1) % 8 = 0
    · have e : outsAt m c (n + 1) h = _ := outsAt_B m c ⟨n + 1, h⟩ h0 h8
      refine ⟨?_, fun j => ?_⟩
      · rw [e]; dsimp only
        rw [val_B]
        show (outsAt m c n hn).1 (ix2 (0 : Fin 1) (0 : Fin 1)) + rowTerm (iblk m c 0 ⟨n + 1, h⟩) (iblk m c 1 ⟨n + 1, h⟩) = _
        rw [ih.1, hr]
        exact (accF_succ_first _ _ n h8).symm
      · have hb : colTerm (iblk m c 0 ⟨n + 1, h⟩) (iblk m c 1 ⟨n + 1, h⟩) j
            = blockMin (XC m c) (YC m c) (fin4 ((n + 1) / 8)) ((n + 1) % 8) j := blockMin_eq m c ⟨n + 1, h⟩ j
        rw [e]; dsimp only
        rw [sval_B, hb, h8]
        rfl
    · by_cases h7 : (n + 1) % 8 = 7
      · have e : outsAt m c (n + 1) h = _ := outsAt_D m c ⟨n + 1, h⟩ h0 h8 h7
        refine ⟨?_, fun j => ?_⟩
        · rw [e]; dsimp only
          rw [val_D]
          show ((outsAt m c n hn).1 (ix2 (0 : Fin 1) (0 : Fin 1)) + rowTerm (iblk m c 0 ⟨n + 1, h⟩) (iblk m c 1 ⟨n + 1, h⟩))
              + (∑ j : Fin 4096, min ((outsAt m c n hn).2 (ix2 (0 : Fin 1) j)) (colTerm (iblk m c 0 ⟨n + 1, h⟩) (iblk m c 1 ⟨n + 1, h⟩) j)) * κ = _
          have hs : ∀ j : Fin 4096, min ((outsAt m c n hn).2 (ix2 (0 : Fin 1) j)) (colTerm (iblk m c 0 ⟨n + 1, h⟩) (iblk m c 1 ⟨n + 1, h⟩) j)
              = ⨅ i : Fin 4096, distK (XC m c) (YC m c) (fin4 ((n + 1) / 8)) i j := fun j => by
            rw [scr_step m c n h hn ih.2 h8 j, h7]
            exact colMinUpTo_seven _ _ _ j
          rw [Finset.sum_congr rfl fun j _ => hs j, ih.1, hr]
          exact (accF_succ_last _ _ n h7).symm
        · rw [e]; dsimp only
          rw [sval_D]
          exact scr_step m c n h hn ih.2 h8 j
      · have e : outsAt m c (n + 1) h = _ := outsAt_C m c ⟨n + 1, h⟩ h0 h8 h7
        refine ⟨?_, fun j => ?_⟩
        · rw [e]; dsimp only
          rw [val_C]
          show (outsAt m c n hn).1 (ix2 (0 : Fin 1) (0 : Fin 1)) + rowTerm (iblk m c 0 ⟨n + 1, h⟩) (iblk m c 1 ⟨n + 1, h⟩) = _
          rw [ih.1, hr]
          exact (accF_succ_mid _ _ n h8 h7).symm
        · rw [e]; dsimp only
          rw [sval_C]
          exact scr_step m c n h hn ih.2 h8 j

/-- The idealized kernel runs to its end; its result is the loss accumulated batch by batch, and its argument
    arrays end unchanged. -/
theorem run_loss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (fun _ => Cert.Chamfer.lossK (Cert.Chamfer.cloud (m ((c.tc : Thread nD τ).loc main_arg0))) (Cert.Chamfer.cloud (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(result_of_post m r h c).trans (funext fun _ => ((inv_all m c 31 last_lt).1).trans (accF_last _ _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Body

end
-- ==== Proof.RefFrame.lean ====
/-
  The reference program runs to the end, faults nowhere and leaves its two argument arrays unchanged:
  its run read back operation by operation, with the statement about the result dropped.
-/
import proofs.«159343_g75617194213799_fold_wed_c4_881_5_alg».proof.Defs
import proofs.«159343_g75617194213799_fold_wed_c4_881_5_alg».proof.Proof.Gen.ReferenceIdeal
import proofs.«159343_g75617194213799_fold_wed_c4_881_5_alg».proof.Proof.Gen.Pre_finite_inputs
import proofs.«159343_g75617194213799_fold_wed_c4_881_5_alg».proof.Proof.Gen.ReferenceIdeal.Run

noncomputable section

namespace Cert.ReferenceIdeal.RefFrame

open Idealize.ShloMosaic Idealize.SL.Sem

theorem frame_ri : Cert.frame_ReferenceIdeal := fun m ρ _ =>
  (θ_run Cert.ReferenceIdeal.defs _ _).mono (fun _ h c => (h c).2)
    (Cert.ReferenceIdeal.Value.run (F := Ideal) m ρ)

end Cert.ReferenceIdeal.RefFrame

end
-- ==== Proof.RefValue.lean ====
/-
  The reference program's result is the chamfer loss of the specification.

  The program forms, for every batch b, point i of the first cloud, point j of the second and coordinate k,
  the squared coordinate difference; sums it over k (the squared distance dist b i j); takes the minimum over j
  (the nearest point of the second cloud) and, separately, over i (the nearest point of the first); sums each
  family of minima over (batch, point); divides each total by 16384; and adds the two quotients.
  A minimum from +infinity over a whole axis is the infimum over that axis, a division by 16384 is a
  multiplication by 1/16384 on every extended real, and a sum started from 0 is the sum.
-/
import proofs.«159343_g75617194213799_fold_wed_c4_881_5_alg».proof.Proof.Gen.ReferenceIdeal.Read
import proofs.«159343_g75617194213799_fold_wed_c4_881_5_alg».proof.Proof.CloudOf
import proofs.«159343_g75617194213799_fold_wed_c4_881_5_alg».proof.Proof.SpecConst
import proofs.«159343_g75617194213799_fold_wed_c4_881_5_alg».proof.Proof.LibMinFold

noncomputable section

namespace Cert.ReferenceIdeal.RefValue

open Cert.ReferenceIdeal Cert.ReferenceIdeal.Gen Cert.ReferenceIdeal.Read Cert.Chamfer
open Idealize.ShloMosaic Idealize.ShloMosaic.ValueIdx Idealize.ShloMosaic.TcCoe Idealize.SL.Sem
open Idealize.ShloMosaic.StableHlo
open scoped BigOperators

/-- The contents of an argument array: extended reals indexed by (batch, point, coordinate). -/
abbrev Arr := (⟨S4x4096x3, .f32⟩ : BufTy).Contents (Elt Ideal)

/-! ## Indices by coordinates -/

/-- The first cloud is read at (b, i, k) for the entry (b, i, j, k) of the difference. -/
theorem idx_first (b : Fin 4) (i j : Fin 4096) (k : Fin 3) :
    idx_main_v0 (idx_main_v2 (ix4 b i j k)) = ix3 b i k :=
  funext fun a => Fin.ext (by match a with | ⟨0, _⟩ => rfl | ⟨1, _⟩ => rfl | ⟨2, _⟩ => rfl)

/-- The second cloud is read at (b, j, k) for the entry (b, i, j, k) of the difference. -/
theorem idx_second (b : Fin 4) (i j : Fin 4096) (k : Fin 3) :
    idx_main_v1 (idx_main_v3 (ix4 b i j k)) = ix3 b j k :=
  funext fun a => Fin.ext (by match a with | ⟨0, _⟩ => rfl | ⟨1, _⟩ => rfl | ⟨2, _⟩ => rfl)

/-- The k-th term of the coordinate sum at (b, i, j) is the entry (b, i, j, k). -/
theorem idx_coord (b : Fin 4) (i j : Fin 4096) (k : Fin 3) :
    idx_main_v6 (ix3 b i j) k = ix4 b i j k :=
  funext fun a => Fin.ext (by match a with | ⟨0, _⟩ => rfl | ⟨1, _⟩ => rfl | ⟨2, _⟩ => rfl | ⟨3, _⟩ => rfl)

/-- Inserting j on the last axis of (b, i) gives (b, i, j). -/
theorem lift_last (h : S4x4096x4096.Reduces [2] S4x4096) (b : Fin 4) (i j : Fin 4096) :
    h.lift (ix2 b i) j = ix3 b i j :=
  funext fun a => Fin.ext (by match a with | ⟨0, _⟩ => rfl | ⟨1, _⟩ => rfl | ⟨2, _⟩ => rfl)

/-- Inserting i on the middle axis of (b, j) gives (b, i, j). -/
theorem lift_mid (h : S4x4096x4096.Reduces [1] S4x4096) (b : Fin 4) (i j : Fin 4096) :
    h.lift (ix2 b j) i = ix3 b i j :=
  funext fun a => Fin.ext (by match a with | ⟨0, _⟩ => rfl | ⟨1, _⟩ => rfl | ⟨2, _⟩ => rfl)

/-! ## The stages -/

/-- The squared coordinate difference at (b, i, j, k). -/
theorem sq_at (A0 A1 : Arr) (b : Fin 4) (i j : Fin 4096) (k : Fin 3) :
    val_main_v5 (F := Ideal) A0 A1 (ix4 b i j k)
      = (cloud A0 b i k - cloud A1 b j k) * (cloud A0 b i k - cloud A1 b j k) := by
  rw [val_main_v5_apply, val_main_v4_apply, val_main_v2_apply, val_main_v3_apply, val_main_v0_apply,
    val_main_v1_apply, idx_first, idx_second]
  rfl

/-- The coordinate sum at (b, i, j) is the squared distance. -/
theorem dist_at (A0 A1 : Arr) (b : Fin 4) (i j : Fin 4096) :
    val_main_v6 (F := Ideal) A0 A1 (ix3 b i j) = dist (cloud A0) (cloud A1) b i j := by
  rw [val_main_v6_apply, val_main_cst_apply, Ideal.ofBits_def, ofBits_zero, zero_add]
  unfold Chamfer.dist
  refine Finset.sum_congr rfl fun k _ => ?_
  rw [idx_coord, sq_at]

/-- A fold of the minimum from the top element over a whole finite index type is the infimum. -/
theorem fold_minimumf_top {ι : Type} [Fintype ι] (f : ι → EReal) :
    (Finset.univ : Finset ι).fold (FloatOps.minimumf (F := Ideal) (φ := .f32)) (⊤ : EReal) f = ⨅ k, f k :=
  MinFold.fold_min_top_univ f

/-- The minimum over the second cloud's points: the nearest point of the second cloud to point i of the first. -/
theorem near_second_at (A0 A1 : Arr) (b : Fin 4) (i : Fin 4096) :
    val_main_v7 (F := Ideal) A0 A1 (ix2 b i) = ⨅ j : Fin 4096, dist (cloud A0) (cloud A1) b i j := by
  have h : S4x4096x4096.Reduces [2] S4x4096 := by decide
  unfold val_main_v7
  rw [Host.reduce_eq_fold_single FloatOps.minimumf _ _ reducesTo_S4x4096x4096_S4x4096_d2 h h_S_,
    val_main_cst_0_apply, Ideal.ofBits_def, ofBits_top]
  refine (fold_minimumf_top _).trans (iInf_congr fun j => ?_)
  exact (congrArg (val_main_v6 (F := Ideal) A0 A1) (lift_last h b i j)).trans (dist_at A0 A1 b i j)

/-- The minimum over the first cloud's points: the nearest point of the first cloud to point j of the second. -/
theorem near_first_at (A0 A1 : Arr) (b : Fin 4) (j : Fin 4096) :
    val_main_v10 (F := Ideal) A0 A1 (ix2 b j) = ⨅ i : Fin 4096, dist (cloud A0) (cloud A1) b i j := by
  have h : S4x4096x4096.Reduces [1] S4x4096 := by decide
  unfold val_main_v10
  rw [Host.reduce_eq_fold_single FloatOps.minimumf _ _ reducesTo_S4x4096x4096_S4x4096_d1 h h_S_,
    val_main_cst_3_apply, Ideal.ofBits_def, ofBits_top]
  refine (fold_minimumf_top _).trans (iInf_congr fun i => ?_)
  exact (congrArg (val_main_v6 (F := Ideal) A0 A1) (lift_mid h b i j)).trans (dist_at A0 A1 b i j)

/-- The total of the first family of minima over (batch, point). -/
theorem total_second_at (A0 A1 : Arr) (z : S_.Idx) :
    val_main_v8 (F := Ideal) A0 A1 z
      = ∑ b : Fin 4, ∑ i : Fin 4096, ⨅ j : Fin 4096, dist (cloud A0) (cloud A1) b i j := by
  rw [val_main_v8_apply, val_main_cst_1_apply, Ideal.ofBits_def, ofBits_zero, zero_add, sum_idx2]
  exact Finset.sum_congr rfl fun b _ => Finset.sum_congr rfl fun i _ => near_second_at A0 A1 b i

/-- The total of the second family of minima over (batch, point). -/
theorem total_first_at (A0 A1 : Arr) (z : S_.Idx) :
    val_main_v11 (F := Ideal) A0 A1 z
      = ∑ b : Fin 4, ∑ j : Fin 4096, ⨅ i : Fin 4096, dist (cloud A0) (cloud A1) b i j := by
  rw [val_main_v11_apply, val_main_cst_4_apply, Ideal.ofBits_def, ofBits_zero, zero_add, sum_idx2]
  exact Finset.sum_congr rfl fun b _ => Finset.sum_congr rfl fun j _ => near_first_at A0 A1 b j

/-- Dividing by 16384 multiplies by 1/16384, on every extended real. -/
theorem div_16384 (x : EReal) : Ideal.div x (Ideal.ofBits .f32 0x46800000#32) = x * κ := by
  rw [ofBits_16384, Ideal.div_coe (by norm_num : (16384 : ℝ) ≠ 0)]
  rfl

/-- The reference's result: the two totals, each scaled by 1/16384, added. -/
theorem result_eq (A0 A1 : Arr) :
    val_main_v13 (F := Ideal) A0 A1 = fun _ => lossRef (cloud A0) (cloud A1) := by
  funext z
  rw [val_main_v13_apply, val_main_v9_apply, val_main_v12_apply, val_main_cst_2_apply, val_main_cst_5_apply,
    Ideal.addf_def, Ideal.hostDivf_def, Ideal.hostDivf_def, Ideal.ofBits_def, div_16384, div_16384,
    total_second_at, total_first_at]
  rfl

/-- The reference's run: every weakly fair execution terminates with the loss of the two argument clouds in the
    result and the arguments unchanged. -/
theorem run_loss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = (fun _ => lossRef (cloud (m ((c.tc : Thread nD τ).loc main_arg0)))
              (cloud (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v13_eq _ _).trans (result_eq _ _)), (h c).2⟩)
    (Value.run (F := Ideal) m ρ)

end Cert.ReferenceIdeal.RefValue

end
-- ==== Proof.LibFiniteAll.lean ====
/-
  Reading back one conjunct of the precondition. Each conjunct is a reduction by `and`, over a whole array, of an
  entrywise comparison: `|x| < +inf` (every entry of x is finite) or `v ≥ 0`. A reduction by `and` from 1 that
  comes out 1 met only 1s, so the comparison holds at every index. On the extended reals `|x| = max x (-x)`, and
  `max x (-x) < ⊤` excludes both infinities, so x is a real number.
-/
import Idealize.ShloMosaic.PureOps.Ideal
import Idealize.ShloMosaic.PureOps.Ideal.Laws
import Idealize.ShloMosaic.Lib.ValueIdx
import Idealize.ShloMosaic.Lib.ReduceAll
import Idealize.ShloMosaic.PureOps

noncomputable section

namespace Cert.LibFiniteAll

open Idealize.ShloMosaic

/-- The rank-0 shape has one index. -/
theorem subsingleton_idx0 : Subsingleton (⟨0, ![]⟩ : Shape).Idx := ⟨fun a b => funext fun d => d.elim0⟩

/-- The f32 word of +infinity denotes the top extended real. -/
theorem ofBits_inf : Ideal.ofBits .f32 0x7F800000#32 = (⊤ : EReal) := by simp [Ideal.ofBits, Ideal.ieee]

/-- An extended real whose absolute value max x (-x) is below +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A comparison word that is 1 says the comparison holds. -/
theorem ofBool_eq_one (b : Bool) : BitVec.ofBool b = 1#1 ↔ b = true := by cases b <;> decide

/-- Entry read-back of |x| < +inf. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- Entry read-back of v ≥ 0. -/
theorem nonneg_of_cmp (v : EReal)
    (h : Ideal.cmp .oge v (Ideal.ofBits .f32 0x00000000#32) = 1#1) : 0 ≤ v := by
  rw [Ideal.ofBits_zero_f32] at h
  unfold Ideal.cmp at h
  rw [ofBool_eq_one] at h
  exact of_decide_eq_true h

variable {s : Shape} {axes : List (Fin s.rank)}

/-- all(|x| < +inf) = 1 over an array of any shape: every entry is a real number. -/
theorem real_of_all (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  haveI := subsingleton_idx0
  have h := Host.reduce_andi_all _ _ hr hu _ e i
  exact real_of_cmp (x i) h

/-- all(v ≥ 0) = 1: every entry is nonnegative. -/
theorem nonneg_of_all (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .oge v (broadcastInDim s ![] hb (constant (F := Ideal) (⟨0, ![]⟩ : Shape) .f32 0x00000000#32)))
          (constantI (⟨0, ![]⟩ : Shape) 1 1#1) hr hu ValueIdx.ix0 = 1#1)
    (i : s.Idx) : (0 : EReal) ≤ v i := by
  haveI := subsingleton_idx0
  have h := Host.reduce_andi_all _ _ hr hu _ e i
  exact nonneg_of_cmp (v i) h

end Cert.LibFiniteAll

end
-- ==== Proof.FiniteIn.lean ====
/-
  Finiteness of the inputs, read out of the precondition. The precondition is the conjunction of two statements,
  one per argument array: the reduction by "and", over the whole array, of the entrywise comparison |x| < +infinity
  comes out 1. A reduction by "and" that comes out 1 met only 1s, so the comparison holds at every entry, and an
  extended real whose absolute value is below +infinity is the coercion of a real number.
-/
import proofs.«159343_g75617194213799_fold_wed_c4_881_5_alg».proof.Defs
import proofs.«159343_g75617194213799_fold_wed_c4_881_5_alg».proof.Proof.Gen.Pre_finite_inputs
import proofs.«159343_g75617194213799_fold_wed_c4_881_5_alg».proof.Proof.Gen.KernelIdeal
import proofs.«159343_g75617194213799_fold_wed_c4_881_5_alg».proof.Proof.CloudOf
import proofs.«159343_g75617194213799_fold_wed_c4_881_5_alg».proof.Proof.LibFiniteAll
import Idealize.ShloMosaic.Lib.Affine

noncomputable section

namespace Cert.Chamfer.FiniteIn

open Idealize.ShloMosaic Idealize.ShloMosaic.ValueIdx Idealize.SL.Sem Cert.Chamfer

/-- When the precondition's function of two arrays is all ones, every entry of either array is a real number. -/
theorem real_of_fn (A0 A1 : FVec Ideal Cert.Pre_finite_inputs.S4x4096x3 .f32)
    (h : Cert.Pre_finite_inputs.fn (F := Ideal) A0 A1 = fun _ => 1#1) :
    (∀ idx, ∃ x : ℝ, A0 idx = (x : EReal)) ∧ (∀ idx, ∃ x : ℝ, A1 idx = (x : EReal)) := by
  have h0 := congrFun h ix0
  dsimp only [Cert.Pre_finite_inputs.fn] at h0
  obtain ⟨ha, hb⟩ := IntOp.andi_eq_one.1 h0
  exact ⟨fun idx => Cert.LibFiniteAll.real_of_all A0 _ _ _ ha idx,
    fun idx => Cert.LibFiniteAll.real_of_all A1 _ _ _ hb idx⟩

variable (m : (ℓ : Loc Cert.KernelIdeal.nD Cert.KernelIdeal.τ Cert.KernelIdeal.sig) → Buf (Elt Ideal) ℓ)

/-- Under the precondition every entry of the first argument array, on every device, is a real number. -/
theorem real_arg0 (hpre : Cert.Pre_KernelIdeal m) (c : Dev Cert.KernelIdeal.nD)
    (idx : (⟨3, ![4, 4096, 3]⟩ : Shape).Idx) :
    ∃ x : ℝ, (m ((c.tc : Thread Cert.KernelIdeal.nD Cert.KernelIdeal.τ).loc Cert.KernelIdeal.main_arg0)) idx
      = (x : EReal) :=
  (real_of_fn _ _ (hpre c)).1 idx

/-- Under the precondition every entry of the second argument array, on every device, is a real number. -/
theorem real_arg1 (hpre : Cert.Pre_KernelIdeal m) (c : Dev Cert.KernelIdeal.nD)
    (idx : (⟨3, ![4, 4096, 3]⟩ : Shape).Idx) :
    ∃ x : ℝ, (m ((c.tc : Thread Cert.KernelIdeal.nD Cert.KernelIdeal.τ).loc Cert.KernelIdeal.main_arg1)) idx
      = (x : EReal) :=
  (real_of_fn _ _ (hpre c)).2 idx

/-- The same for the first array read as point clouds: every coordinate of every point is a real number. -/
theorem real_cloud0 (hpre : Cert.Pre_KernelIdeal m) (c : Dev Cert.KernelIdeal.nD)
    (b : Fin 4) (i : Fin 4096) (k : Fin 3) :
    ∃ x : ℝ, cloud (m ((c.tc : Thread Cert.KernelIdeal.nD Cert.KernelIdeal.τ).loc Cert.KernelIdeal.main_arg0)) b i k
      = (x : EReal) :=
  real_arg0 m hpre c (ix3 b i k)

/-- The same for the second array read as point clouds. -/
theorem real_cloud1 (hpre : Cert.Pre_KernelIdeal m) (c : Dev Cert.KernelIdeal.nD)
    (b : Fin 4) (i : Fin 4096) (k : Fin 3) :
    ∃ x : ℝ, cloud (m ((c.tc : Thread Cert.KernelIdeal.nD Cert.KernelIdeal.τ).loc Cert.KernelIdeal.main_arg1)) b i k
      = (x : EReal) :=
  real_arg1 m hpre c (ix3 b i k)

end Cert.Chamfer.FiniteIn

end
-- ==== Proof.SpecLaw.lean ====
/-
  On real entries the two arrangements of the chamfer loss agree.

  Every entry of the two clouds is the coercion of a real number.  Then both squared distances are the
  coercion of the same real number (the expansion of a square), an infimum over the 4096 points of such
  coercions is attained and so is again the coercion of a real, and what remains is an identity between
  finite sums of reals: the eight blocks of 512 rows enumerate the 4096 rows once each, and the scale
  1/16384 distributes over the sums.
-/
import proofs.«159343_g75617194213799_fold_wed_c4_881_5_alg».proof.Proof.Spec

noncomputable section

namespace Cert.Chamfer

open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An infimum of coercions of reals over a nonempty finite type is attained, hence the coercion of a real. -/
theorem exists_iInf_coe {ι : Type*} [Finite ι] [Nonempty ι] (f : ι → ℝ) :
    ∃ m : ℝ, ⨅ j, (f j : EReal) = (m : EReal) := by
  obtain ⟨j, hj⟩ := exists_eq_ciInf_of_finite (f := fun j => (f j : EReal))
  exact ⟨f j, hj.symm⟩

/-- The eight blocks of 512 rows enumerate the 4096 rows. -/
def rowEquiv : Fin 8 × Fin 512 ≃ Fin 4096 where
  toFun p := row p.1 p.2
  invFun i := (⟨i.val / 512, by omega⟩, ⟨i.val % 512, by omega⟩)
  left_inv p := by
    rcases p with ⟨c, r⟩
    ext <;> simp only [row] <;> omega
  right_inv i := by
    ext
    simp only [row]
    omega

/-- Summing block by block is summing over all rows. -/
theorem sum_row {M : Type*} [AddCommMonoid M] (h : Fin 4096 → M) :
    ∑ c : Fin 8, ∑ r : Fin 512, h (row c r) = ∑ i : Fin 4096, h i := by
  rw [← Fintype.sum_prod_type' (fun c r => h (row c r))]
  exact Fintype.sum_equiv rowEquiv _ _ (fun _ => rfl)

/-- The squared distance of real points, as a real number. -/
def distR (x y : Fin 4 → Fin 4096 → Fin 3 → ℝ) (b : Fin 4) (i j : Fin 4096) : ℝ :=
  ∑ k : Fin 3, (x b i k - y b j k) * (x b i k - y b j k)

theorem dist_coe (X Y : Cloud) (x y : Fin 4 → Fin 4096 → Fin 3 → ℝ)
    (hx : ∀ b i k, X b i k = (x b i k : EReal)) (hy : ∀ b j k, Y b j k = (y b j k : EReal))
    (b : Fin 4) (i j : Fin 4096) : dist X Y b i j = (distR x y b i j : EReal) := by
  unfold dist distR
  rw [coe_sum]
  refine Finset.sum_congr rfl fun k _ => ?_
  rw [hx, hy, EReal.coe_mul, EReal.coe_sub]

theorem distK_coe (X Y : Cloud) (x y : Fin 4 → Fin 4096 → Fin 3 → ℝ)
    (hx : ∀ b i k, X b i k = (x b i k : EReal)) (hy : ∀ b j k, Y b j k = (y b j k : EReal))
    (b : Fin 4) (i j : Fin 4096) : distK X Y b i j = (distR x y b i j : EReal) := by
  unfold distK distR c2
  simp only [hx, hy, ← EReal.coe_mul, ← EReal.coe_add, ← coe_sum]
  rw [EReal.coe_eq_coe_iff]
  simp only [Fin.sum_univ_three]
  ring

/-- The identity between the two accumulations once every nearest distance is a real number. -/
theorem loss_core (m1 m2 : Fin 4 → Fin 4096 → ℝ) :
    ∑ b : Fin 4, ((∑ c : Fin 8, (∑ r : Fin 512, (m1 b (row c r) : EReal)) * κ)
        + (∑ j : Fin 4096, (m2 b j : EReal)) * κ)
      = (∑ b : Fin 4, ∑ i : Fin 4096, (m1 b i : EReal)) * κ
        + (∑ b : Fin 4, ∑ j : Fin 4096, (m2 b j : EReal)) * κ := by
  unfold κ
  simp only [← coe_sum, ← EReal.coe_mul, ← EReal.coe_add]
  rw [EReal.coe_eq_coe_iff]
  have hrow : ∀ b : Fin 4, ∑ c : Fin 8, ∑ r : Fin 512, m1 b (row c r) = ∑ i : Fin 4096, m1 b i :=
    fun b => sum_row (fun i => m1 b i)
  simp only [← Finset.sum_mul, hrow, Finset.sum_add_distrib]

theorem lossK_eq_lossRef (X Y : Cloud) (hX : ∀ b i k, ∃ x : ℝ, X b i k = (x : EReal))
    (hY : ∀ b j k, ∃ y : ℝ, Y b j k = (y : EReal)) : lossK X Y = lossRef X Y := by
  choose x hx using hX
  choose y hy using hY
  have hK : ∀ b i j, distK X Y b i j = dist X Y b i j := fun b i j => by
    rw [distK_coe X Y x y hx hy, dist_coe X Y x y hx hy]
  have h1 : ∀ b i, ∃ m : ℝ, ⨅ j, dist X Y b i j = (m : EReal) := fun b i => by
    simp only [dist_coe X Y x y hx hy]
    exact exists_iInf_coe _
  have h2 : ∀ b j, ∃ m : ℝ, ⨅ i, dist X Y b i j = (m : EReal) := fun b j => by
    simp only [dist_coe X Y x y hx hy]
    exact exists_iInf_coe _
  choose m1 hm1 using h1
  choose m2 hm2 using h2
  unfold lossK lossRef rowPart colPart
  simp only [hK, hm1, hm2]
  exact loss_core m1 m2

end Cert.Chamfer

end
-- ==== Proof.lean ====
/-
  The chamfer loss kernel computes what its reference computes.

  Both programs take two batches of point clouds (4 batches of 4096 points with 3 coordinates). The reference forms
  every squared distance between a point of the first cloud and a point of the second as the sum of the squared
  coordinate differences, takes the nearest distance in each direction, averages each family over all 16384
  (batch, point) pairs and adds the two means: this is lossRef. The kernel expands the squared distance as
  -2 x·y + |y|^2 + |x|^2, works batch by batch and inside a batch by blocks of 512 rows, and adds every partial
  sum already scaled by 1/16384: this is lossK.

  The parts. Each of the three programs runs to its end, faults nowhere and leaves its arguments unchanged (the
  frames). The idealized kernel is the kernel's own text read over the extended reals, so nothing is to be shown
  for its sanctioned rewrites. For the value, the kernel's run ends with lossK of the two argument clouds in its
  result, the reference's run with lossRef of them. The precondition says every input entry is finite, so every
  coordinate is a real number; on real coordinates the expansion of the square, the regrouping of the sums and the
  distribution of the scale 1/16384 over them are valid, and lossK equals lossRef.
-/
import proofs.«159343_g75617194213799_fold_wed_c4_881_5_alg».proof.Defs
import proofs.«159343_g75617194213799_fold_wed_c4_881_5_alg».proof.Proof.Gen.Kernel
import proofs.«159343_g75617194213799_fold_wed_c4_881_5_alg».proof.Proof.Gen.KernelIdeal
import proofs.«159343_g75617194213799_fold_wed_c4_881_5_alg».proof.Proof.Gen.ReferenceIdeal
import proofs.«159343_g75617194213799_fold_wed_c4_881_5_alg».proof.Proof.Gen.Pre_finite_inputs
import proofs.«159343_g75617194213799_fold_wed_c4_881_5_alg».proof.Proof.BodyKFrame
import proofs.«159343_g75617194213799_fold_wed_c4_881_5_alg».proof.Proof.BodyKIFrame
import proofs.«159343_g75617194213799_fold_wed_c4_881_5_alg».proof.Proof.KernValue
import proofs.«159343_g75617194213799_fold_wed_c4_881_5_alg».proof.Proof.RefFrame
import proofs.«159343_g75617194213799_fold_wed_c4_881_5_alg».proof.Proof.RefValue
import proofs.«159343_g75617194213799_fold_wed_c4_881_5_alg».proof.Proof.FiniteIn
import proofs.«159343_g75617194213799_fold_wed_c4_881_5_alg».proof.Proof.SpecLaw
import Idealize.ShloMosaic.Adequacy
import Idealize.ShloMosaic.Init

noncomputable section

namespace Cert.Proof

open Idealize.ShloMosaic Idealize.SL.Sem Cert.Chamfer

/-- The kernel and the reference end with equal results: the kernel's accumulated loss is the reference's loss of the
    same clouds, because under the precondition every coordinate is a real number. -/
theorem algebraic : Cert.algebraic_KernelIdeal_ReferenceIdeal := fun m ρ m' ρ' hpre hagree =>
  ⟨fun c => fun _ => lossRef
      (cloud (m ((c.tc : Thread Cert.KernelIdeal.nD Cert.KernelIdeal.τ).loc Cert.KernelIdeal.main_arg0)))
      (cloud (m ((c.tc : Thread Cert.KernelIdeal.nD Cert.KernelIdeal.τ).loc Cert.KernelIdeal.main_arg1))),
    (θ_run Cert.KernelIdeal.defs _ _).mono
      (fun _ h c => ⟨(h c).1.trans (funext fun _ =>
          lossK_eq_lossRef _ _ (FiniteIn.real_cloud0 m hpre c) (FiniteIn.real_cloud1 m hpre c)), (h c).2⟩)
      (Cert.KernelIdeal.Body.run_loss m ρ),
    (θ_run Cert.ReferenceIdeal.defs _ _).mono
      (fun _ h c => ⟨(h c).1.trans (by rw [(hagree c).1, (hagree c).2]; rfl), (h c).2⟩)
      (Cert.ReferenceIdeal.RefValue.run_loss m' ρ')⟩

theorem claim : Cert.Claim :=
  ⟨Cert.Kernel.Gen.facts, Cert.KernelIdeal.Gen.facts, Cert.ReferenceIdeal.Gen.facts, Cert.Pre_finite_inputs.Gen.facts,
    fun m ρ _ => Cert.Kernel.Body.frame (F := Bits) m ρ,
    fun m ρ _ => Cert.KernelIdeal.Body.frame (F := Ideal) m ρ,
    Cert.ReferenceIdeal.RefFrame.frame_ri,
    trivial,
    algebraic⟩

end Cert.Proof

end
